-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 102
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S100000x128, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  shapeCasts_S1x64_S1x64 : S1x64.ShapeCasts S1x64
  broadcasts_S1x64_S5000x64 : S1x64.Broadcasts S5000x64
  shapeCasts_S5000x64_S5000x64 : S5000x64.ShapeCasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x64, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x64, .f32⟩
  | .hbm, ⟨104, _⟩ => ⟨S1700000x1, .f32⟩
  | .hbm, ⟨105, _⟩ => ⟨S1700000x64, .f32⟩
  | .hbm, ⟨106, _⟩ => ⟨S1700000x64, .f32⟩
  | .hbm, ⟨107, _⟩ => ⟨S_, .f32⟩
  | .hbm, ⟨108, _⟩ => ⟨S100000x64, .f32⟩
  | .hbm, ⟨109, _⟩ => ⟨S1700000x1, .i32⟩
  | .hbm, ⟨110, _⟩ => ⟨S100000x64, .f32⟩
  | .hbm, ⟨111, _⟩ => ⟨S1x64, .f32⟩
  | .hbm, ⟨112, _⟩ => ⟨S100000x64, .f32⟩
  | .hbm, ⟨113, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Glue.lean ====
/-
  The graph side of the network, as whole-array functions: the edge list with its self-loops, the symmetric
  degree normalisation, and one layer's neighbourhood aggregation (gather the transformed rows at the edge sources,
  scale each by its edge's weight, add them up at the edge targets). Both programs apply these same operations to
  their values, so they are carried as named functions and never opened: the certificate only has to show that the
  values going INTO them agree. The dense transform and the bias / activation stages are named here too, in the
  reference's spelling; GcnSpec reads them index by index.
-/
import proofs.«139202_j54924041781475_1_alg».proof.Proof.Gen.ReferenceIdeal

noncomputable section

namespace Cert.Gcn

open Cert.ReferenceIdeal Cert.ReferenceIdeal.Gen Idealize.ShloMosaic Idealize.ShloMosaic.TcCoe

variable {F : FTy → Type} [FloatOps F]

/-- Edge sources: row 0 of the edge list, then one self-loop per node. -/
def src (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- Edge targets: row 1 of the edge list, then one self-loop per node. -/
def dst (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- In-degree with self-loops: a one added at every edge's target. -/
def deg (d : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))

/-- deg^(-1/2) where the degree is positive, 0 elsewhere. -/
def dinv (d : (⟨S1700000, .i32⟩ : BufTy).Contents (Elt F)) : (⟨S100000, .f32⟩ : BufTy).Contents (Elt F) :=
  select (cmpf .ogt (deg d) (broadcastInDim S100000 ![] bcast_S_S100000 (constant S_ .f32 0x00000000#32))) (Host.rsqrt (deg d)) (broadcastInDim S100000 ![] bcast_S_S100000 (id (constant S_ .f32 0x00000000#32)))

/-- An index column for a gather: a negative entry wraps around by the node count. -/
def wrapIdx (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The edge weights: dinv at the source times dinv at the target. -/
def norm (s d : (⟨S1700000, .i32⟩ : BufTy).Contents (Elt F)) : (⟨S1700000, .f32⟩ : BufTy).Contents (Elt F) :=
  mulf (Host.gather gather_S100000_S1700000x1_S1700000_n_0_n_n_0_1_1 (dinv d) (wrapIdx s)) (Host.gather gather_S100000_S1700000x1_S1700000_n_0_n_n_0_1_1 (dinv d) (wrapIdx d))

/-- One layer's aggregation at width 128: rows of `xw` gathered at the sources, scaled by the edge weights, summed at the targets. -/
def agg128 (xw : (⟨S100000x128, .f32⟩ : BufTy).Contents (Elt F)) (s d : (⟨S1700000, .i32⟩ : BufTy).Contents (Elt F)) (nrm : (⟨S1700000, .f32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 xw (wrapIdx s)) (broadcastInDim S1700000x128 ![0, 1] bcast_S1700000x1_S1700000x128_0_1 (broadcastInDim S1700000x1 ![0] bcast_S1700000_S1700000x1_0 nrm)))

/-- The same at width 64. -/
def agg64 (xw : (⟨S100000x64, .f32⟩ : BufTy).Contents (Elt F)) (s d : (⟨S1700000, .i32⟩ : BufTy).Contents (Elt F)) (nrm : (⟨S1700000, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 xw (wrapIdx s)) (broadcastInDim S1700000x64 ![0, 1] bcast_S1700000x1_S1700000x64_0_1 (broadcastInDim S1700000x1 ![0] bcast_S1700000_S1700000x1_0 nrm)))

/-- The dense transform x · w, 128 → 128. -/
def dense128 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- The dense transform x · w, 128 → 64. -/
def dense64 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w

/-- Bias added along the rows, then the clamp at zero. -/
def biasRelu (a : (⟨S100000x128, .f32⟩ : BufTy).Contents (Elt F)) (b : (⟨S128, .f32⟩ : BufTy).Contents (Elt F)) : (⟨S100000x128, .f32⟩ : BufTy).Contents (Elt F) :=
  maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32))

/-- Bias added along the rows (the last layer). -/
def biasOnly (a : (⟨S100000x64, .f32⟩ : BufTy).Contents (Elt F)) (b : (⟨S64, .f32⟩ : BufTy).Contents (Elt F)) : (⟨S100000x64, .f32⟩ : BufTy).Contents (Elt F) :=
  addf a (broadcastInDim S100000x64 ![0, 1] bcast_S1x64_S100000x64_0_1 (broadcastInDim S1x64 ![1] bcast_S64_S1x64_1 b))

/-- The three layers on one edge list. -/
def gcn (x : (⟨S100000x128, .f32⟩ : BufTy).Contents (Elt F)) (ei : (⟨S2x1600000, .i32⟩ : BufTy).Contents (Elt F)) (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) (w3 : (⟨S128x64, .f32⟩ : BufTy).Contents (Elt F)) (b3 : (⟨S64, .f32⟩ : BufTy).Contents (Elt F)) : (⟨S100000x64, .f32⟩ : BufTy).Contents (Elt F) :=
  biasOnly (agg64 (dense64 (biasRelu (agg128 (dense128 (biasRelu (agg128 (dense128 x w1) (src ei) (dst ei) (norm (src ei) (dst ei))) b1) w2) (src ei) (dst ei) (norm (src ei) (dst ei))) b2) w3) (src ei) (dst ei) (norm (src ei) (dst ei))) b3

end Cert.Gcn

end
-- ==== Proof.RefValue.lean ====
/-
  The reference computes the three-layer network of Glue: its run's composed term, cut at the names of Glue, is
  `gcn` of the launch arguments. Nothing is computed here; the two sides are the same tree of operations.
-/
import proofs.«139202_j54924041781475_1_alg».proof.Proof.Glue
import proofs.«139202_j54924041781475_1_alg».proof.Proof.RefRun

noncomputable section

namespace Cert.Gcn

open Cert.ReferenceIdeal Cert.ReferenceIdeal.Gen Cert.ReferenceIdeal.ValueP
open Idealize.ShloMosaic Idealize.ShloMosaic.TcCoe Idealize.SL.Sem

variable {F : FTy → Type} [FloatOps F]

set_option maxRecDepth 8192 in
/-- The reference's result is the network applied to its eight arguments as launched. -/
theorem ref_value (m : (ℓ : Loc nD τ sig) → Buf (Elt F) ℓ) (c : Dev nD) :
    res_main_v82 (F := F) m c
      = gcn (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold res_main_v82 gcn biasOnly agg64 dense64 biasRelu agg128 dense128 norm dinv deg wrapIdx src dst
  rfl

end Cert.Gcn

end
-- ==== Proof.KRun.lean ====
/-
  The kernel program's run, read for its value: every weakly fair execution of the six regions and the host
  operations between them terminates, the arguments unchanged, and the result array ends holding what the last region
  boundary holds at it — the contents after region 5, a fold over the boundaries from the launch memory. The run is
  the frame's, over the same segments, with the result buffer kept in the final read.
-/
import proofs.«139202_j54924041781475_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v74) = W12 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v74 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.GcnRun

end
-- ==== Proof.KHost.lean ====
/-
  The kernel program's host operations between its regions, read as whole-array functions of whatever the buffers
  hold when a stretch begins: the edge endpoints and the edge weights from the edge list (before the first region),
  and one layer's neighbourhood aggregation of a transformed feature array (after each dense transform). Each is the
  same function the reference applies (Glue), so nothing is opened; and a stretch leaves every buffer it does not
  write as it found it.
-/
import proofs.«139202_j54924041781475_1_alg».proof.Proof.Gen.KernelIdeal.Launch
import proofs.«139202_j54924041781475_1_alg».proof.Proof.Glue
import Idealize.ShloMosaic.Lib.StableHlo.Run

noncomputable section

namespace Cert.KernelIdeal.GcnHost

open Cert.KernelIdeal Cert.KernelIdeal.Gen
open Idealize.ShloMosaic Idealize.ShloMosaic.TcCoe Idealize.ShloMosaic.StableHlo

variable {F : FTy → Type} [FloatOps F]
variable (W : Valuation τ sig (Elt F))

/-! ## Before the first region: the edge list's endpoints, the degrees, the edge weights -/

theorem first_src : after hostOps0 W (Proc.devRef .tc main_v3) = Cert.Gcn.src (W (Proc.devRef .tc main_arg1)) := by
  dsimp only [hostOps0]; after_results_simp <;> rfl

theorem first_dst : after hostOps0 W (Proc.devRef .tc main_v6) = Cert.Gcn.dst (W (Proc.devRef .tc main_arg1)) := by
  dsimp only [hostOps0]; after_results_simp <;> rfl

theorem first_pos : after hostOps0 W (Proc.devRef .tc main_v12)
    = cmpf .ogt (Cert.Gcn.deg (Cert.Gcn.dst (W (Proc.devRef .tc main_arg1)))) (broadcastInDim S100000 ![] bcast_S_S100000 (constant S_ .f32 0x00000000#32)) := by
  dsimp only [hostOps0]; after_results_simp <;> rfl

theorem first_rsqrt : after hostOps0 W (Proc.devRef .tc main_v13) = Host.rsqrt (Cert.Gcn.deg (Cert.Gcn.dst (W (Proc.devRef .tc main_arg1)))) := by
  dsimp only [hostOps0]; after_results_simp <;> rfl

theorem first_zero : after hostOps0 W (Proc.devRef .tc main_cst_2) = constant S_ .f32 0x00000000#32 := by
  dsimp only [hostOps0]; after_results_simp <;> rfl

/-- The outlined selection: deg^(-1/2) where the degree is positive, 0 elsewhere. -/
theorem where_dinv : after hostOps0_1 W (Proc.devRef .tc main_v14)
    = select (W (Proc.devRef .tc main_v12)) (W (Proc.devRef .tc main_v13)) (broadcastInDim S100000 ![] bcast_S_S100000 (id (W (Proc.devRef .tc main_cst_2)))) := by
  dsimp only [hostOps0_1]; after_results_simp <;> rfl

theorem where_keeps_src : after hostOps0_1 W (Proc.devRef .tc main_v3) = W (Proc.devRef .tc main_v3) := by
  dsimp only [hostOps0_1]; after_results_simp <;> rfl
theorem where_keeps_dst : after hostOps0_1 W (Proc.devRef .tc main_v6) = W (Proc.devRef .tc main_v6) := by
  dsimp only [hostOps0_1]; after_results_simp <;> rfl

/-- The edge weights from the per-node factors and the endpoints. -/
theorem weights : after hostOps0_2 W (Proc.devRef .tc main_v29)
    = mulf (Host.gather gather_S100000_S1700000x1_S1700000_n_0_n_n_0_1_1 (W (Proc.devRef .tc main_v14)) (Cert.Gcn.wrapIdx (W (Proc.devRef .tc main_v3))))
        (Host.gather gather_S100000_S1700000x1_S1700000_n_0_n_n_0_1_1 (W (Proc.devRef .tc main_v14)) (Cert.Gcn.wrapIdx (W (Proc.devRef .tc main_v6)))) := by
  dsimp only [hostOps0_2]; after_results_simp <;> rfl

theorem weights_keeps_src : after hostOps0_2 W (Proc.devRef .tc main_v3) = W (Proc.devRef .tc main_v3) := by
  dsimp only [hostOps0_2]; after_results_simp <;> rfl
theorem weights_keeps_dst : after hostOps0_2 W (Proc.devRef .tc main_v6) = W (Proc.devRef .tc main_v6) := by
  dsimp only [hostOps0_2]; after_results_simp <;> rfl

/-- The three stretches before the first region, together: sources, targets and weights of the edge list. -/
theorem entry_src : after hostOps0_2 (after hostOps0_1 (after hostOps0 W)) (Proc.devRef .tc main_v3) = Cert.Gcn.src (W (Proc.devRef .tc main_arg1)) := by
  rw [weights_keeps_src, where_keeps_src, first_src]
theorem entry_dst : after hostOps0_2 (after hostOps0_1 (after hostOps0 W)) (Proc.devRef .tc main_v6) = Cert.Gcn.dst (W (Proc.devRef .tc main_arg1)) := by
  rw [weights_keeps_dst, where_keeps_dst, first_dst]
theorem entry_norm : after hostOps0_2 (after hostOps0_1 (after hostOps0 W)) (Proc.devRef .tc main_v29)
    = Cert.Gcn.norm (Cert.Gcn.src (W (Proc.devRef .tc main_arg1))) (Cert.Gcn.dst (W (Proc.devRef .tc main_arg1))) := by
  rw [weights, where_keeps_src, where_keeps_dst, first_src, first_dst, where_dinv, first_pos, first_rsqrt, first_zero]
  rfl

/-! ## After each dense transform: the neighbourhood aggregation -/

theorem aggregate1 : after hostOps1 W (Proc.devRef .tc main_v43)
    = Cert.Gcn.agg128 (W (Proc.devRef .tc main_v30)) (W (Proc.devRef .tc main_v3)) (W (Proc.devRef .tc main_v6)) (W (Proc.devRef .tc main_v29)) := by
  dsimp only [hostOps1]; after_results_simp <;> rfl

theorem aggregate3 : after hostOps3 W (Proc.devRef .tc main_v58)
    = Cert.Gcn.agg128 (W (Proc.devRef .tc main_v45)) (W (Proc.devRef .tc main_v3)) (W (Proc.devRef .tc main_v6)) (W (Proc.devRef .tc main_v29)) := by
  dsimp only [hostOps3]; after_results_simp <;> rfl

theorem aggregate5 : after hostOps5 W (Proc.devRef .tc main_v73)
    = Cert.Gcn.agg64 (W (Proc.devRef .tc main_v60)) (W (Proc.devRef .tc main_v3)) (W (Proc.devRef .tc main_v6)) (W (Proc.devRef .tc main_v29)) := by
  dsimp only [hostOps5]; after_results_simp <;> rfl

/-! ## What a stretch writes, and that it leaves every other buffer as it found it -/

/-- The buffers `hostOps0`'s operations write. -/
abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps0_keeps (r : Ref sig .tc) (h : r ∉ hostOps0_W) : after hostOps0 W (Proc.devRef .tc r) = W (Proc.devRef .tc r) :=
  after_of_writes_sub hostOps0 W hostOps0_writes h

/-- The buffers `hostOps0_2`'s operations write. -/
abbrev hostOps0_2_W : List (Ref sig .tc) := [main_c, main_v15, main_v16, main_c_3, main_v17, main_v18, main_v19, main_v20, main_v21, main_c_4, main_v22, main_v23, main_c_5, main_v24, main_v25, main_v26, main_v27, main_v28, main_v29]
theorem hostOps0_2_writes : (hostOps0_2 : List (HloOp τ sig (Elt F))).Forall fun op => op.writes ⊆ (hostOps0_2_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps0_2_keeps (r : Ref sig .tc) (h : r ∉ hostOps0_2_W) : after hostOps0_2 W (Proc.devRef .tc r) = W (Proc.devRef .tc r) :=
  after_of_writes_sub hostOps0_2 W hostOps0_2_writes h

/-- The buffers `hostOps1`'s operations write. -/
abbrev hostOps1_W : List (Ref sig .tc) := [main_c_6, main_v31, main_v32, main_c_7, main_v33, main_v34, main_v35, main_v36, main_v37, main_v38, main_v39, main_v40, main_cst_8, main_v41, main_v42, main_v43]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps1_keeps (r : Ref sig .tc) (h : r ∉ hostOps1_W) : after hostOps1 W (Proc.devRef .tc r) = W (Proc.devRef .tc r) :=
  after_of_writes_sub hostOps1 W hostOps1_writes h

/-- The buffers `hostOps3`'s operations write. -/
abbrev hostOps3_W : List (Ref sig .tc) := [main_c_9, main_v46, main_v47, main_c_10, main_v48, main_v49, main_v50, main_v51, main_v52, main_v53, main_v54, main_v55, main_cst_11, main_v56, main_v57, main_v58]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps3_keeps (r : Ref sig .tc) (h : r ∉ hostOps3_W) : after hostOps3 W (Proc.devRef .tc r) = W (Proc.devRef .tc r) :=
  after_of_writes_sub hostOps3 W hostOps3_writes h

/-- The buffers `hostOps5`'s operations write. -/
abbrev hostOps5_W : List (Ref sig .tc) := [main_c_12, main_v61, main_v62, main_c_13, main_v63, main_v64, main_v65, main_v66, main_v67, main_v68, main_v69, main_v70, main_cst_14, main_v71, main_v72, main_v73]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
theorem hostOps5_keeps (r : Ref sig .tc) (h : r ∉ hostOps5_W) : after hostOps5 W (Proc.devRef .tc r) = W (Proc.devRef .tc r) :=
  after_of_writes_sub hostOps5 W hostOps5_writes h

/-- The outlined selection's three operations leave the arguments alone too. -/
theorem where_keeps_arg0 : after hostOps0_1 W (Proc.devRef .tc main_arg0) = W (Proc.devRef .tc main_arg0) := by
  dsimp only [hostOps0_1]; after_results_simp <;> rfl
theorem where_keeps_arg1 : after hostOps0_1 W (Proc.devRef .tc main_arg1) = W (Proc.devRef .tc main_arg1) := by
  dsimp only [hostOps0_1]; after_results_simp <;> rfl
theorem where_keeps_arg2 : after hostOps0_1 W (Proc.devRef .tc main_arg2) = W (Proc.devRef .tc main_arg2) := by
  dsimp only [hostOps0_1]; after_results_simp <;> rfl
theorem where_keeps_arg3 : after hostOps0_1 W (Proc.devRef .tc main_arg3) = W (Proc.devRef .tc main_arg3) := by
  dsimp only [hostOps0_1]; after_results_simp <;> rfl
theorem where_keeps_arg4 : after hostOps0_1 W (Proc.devRef .tc main_arg4) = W (Proc.devRef .tc main_arg4) := by
  dsimp only [hostOps0_1]; after_results_simp <;> rfl
theorem where_keeps_arg5 : after hostOps0_1 W (Proc.devRef .tc main_arg5) = W (Proc.devRef .tc main_arg5) := by
  dsimp only [hostOps0_1]; after_results_simp <;> rfl
theorem where_keeps_arg6 : after hostOps0_1 W (Proc.devRef .tc main_arg6) = W (Proc.devRef .tc main_arg6) := by
  dsimp only [hostOps0_1]; after_results_simp <;> rfl
theorem where_keeps_arg7 : after hostOps0_1 W (Proc.devRef .tc main_arg7) = W (Proc.devRef .tc main_arg7) := by
  dsimp only [hostOps0_1]; after_results_simp <;> rfl

end Cert.KernelIdeal.GcnHost

end
-- ==== Proof.GcnSpec.lean ====
/-
  The arithmetic of one graph-convolution layer's two dense stages, as whole-array functions of extended reals,
  index by index, over the literal shapes of this network: 100000 nodes, feature widths 128 and 64.

  * `mm128` / `mm64`: the dense transform, entry (r, j) of x · w is the sum over the 128 input features k of
    x[r, k] · w[k, j].
  * `biasRelu128`: s[r, j] + b[j], clamped below at 0.   `bias64`: s[r, j] + b[j].

  Nothing here needs finiteness: each side of the certificate computes these same sums and the same maximum in the
  same order, so they are compared as they stand on the extended reals.
-/
import Idealize.ShloMosaic.Lib.ValueIdx
import Idealize.ShloMosaic.PureOps.Ideal

noncomputable section

namespace Cert.GcnSpec

open Idealize.ShloMosaic Idealize.ShloMosaic.ValueIdx

/-- node features, width 128 -/
abbrev SN128 : Shape := ⟨2, ![100000, 128]⟩
/-- node features, width 64 -/
abbrev SN64 : Shape := ⟨2, ![100000, 64]⟩
/-- a 128 → 128 weight -/
abbrev SW128 : Shape := ⟨2, ![128, 128]⟩
/-- a 128 → 64 weight -/
abbrev SW64 : Shape := ⟨2, ![128, 64]⟩
abbrev SB128 : Shape := ⟨1, ![128]⟩
abbrev SB64 : Shape := ⟨1, ![64]⟩

/-- The dense transform into 128 features: (x · w)[r, j] = ∑ₖ x[r, k] · w[k, j]. -/
def mm128 (x : SN128.Idx → EReal) (w : SW128.Idx → EReal) : SN128.Idx → EReal :=
  fun i => ∑ k : Fin 128, x (ix2 (n0 := 100000) (n1 := 128) (i 0) k) * w (ix2 (n0 := 128) (n1 := 128) k (i 1))

/-- The dense transform into 64 features. -/
def mm64 (x : SN128.Idx → EReal) (w : SW64.Idx → EReal) : SN64.Idx → EReal :=
  fun i => ∑ k : Fin 128, x (ix2 (n0 := 100000) (n1 := 128) (i 0) k) * w (ix2 (n0 := 128) (n1 := 64) k (i 1))

/-- Bias, then the clamp at zero. -/
def biasRelu128 (s : SN128.Idx → EReal) (b : SB128.Idx → EReal) : SN128.Idx → EReal :=
  fun i => max (s i + b (ix1 (n := 128) (i 1))) 0

/-- Bias alone (the last layer has no activation). -/
def bias64 (s : SN64.Idx → EReal) (b : SB64.Idx → EReal) : SN64.Idx → EReal :=
  fun i => s i + b (ix1 (n := 64) (i 1))

theorem mm128_apply (x : SN128.Idx → EReal) (w : SW128.Idx → EReal) (r : Fin 100000) (j : Fin 128) :
    mm128 x w (ix2 r j) = ∑ k : Fin 128, x (ix2 r k) * w (ix2 k j) := rfl

theorem mm64_apply (x : SN128.Idx → EReal) (w : SW64.Idx → EReal) (r : Fin 100000) (j : Fin 64) :
    mm64 x w (ix2 r j) = ∑ k : Fin 128, x (ix2 r k) * w (ix2 k j) := rfl

theorem biasRelu128_apply (s : SN128.Idx → EReal) (b : SB128.Idx → EReal) (r : Fin 100000) (j : Fin 128) :
    biasRelu128 s b (ix2 r j) = max (s (ix2 r j) + b (ix1 j)) 0 := rfl

theorem bias64_apply (s : SN64.Idx → EReal) (b : SB64.Idx → EReal) (r : Fin 100000) (j : Fin 64) :
    bias64 s b (ix2 r j) = s (ix2 r j) + b (ix1 j) := rfl

end Cert.GcnSpec

end
-- ==== Proof.KValue.lean ====
/-
  The kernel program's result, walked back through its region boundaries to the launch memory: the contents after the
  last region are the three-layer network of Glue applied to the arguments as launched. Each dense-transform region's
  output array is the dense transform of what it found, each bias region's the bias stage of what it found (taken
  here as hypotheses, one per region, together with the four readings of the reference's spellings); each host
  stretch between them is the neighbourhood aggregation; the edge endpoints and weights computed before the first
  region, and the arguments, are found unchanged wherever they are read, since nothing in between writes them.
-/
import proofs.«139202_j54924041781475_1_alg».proof.Proof.Gen.KernelIdeal.Frame
import proofs.«139202_j54924041781475_1_alg».proof.Proof.KHost
import proofs.«139202_j54924041781475_1_alg».proof.Proof.GcnSpec

set_option maxRecDepth 16384

noncomputable section

namespace Cert.KernelIdeal.GcnValue

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-- The last boundary's contents at the result buffer are the network of the launch arguments. -/
theorem result_eq
    (h0 : W4 m ρ c (Proc.devRef .tc main_v30) = Cert.GcnSpec.mm128 (W3 m ρ c (Proc.devRef .tc main_arg0)) (W3 m ρ c (Proc.devRef .tc main_arg2)))
    (h1 : W6 m ρ c (Proc.devRef .tc main_v44) = Cert.GcnSpec.biasRelu128 (W5 m ρ c (Proc.devRef .tc main_v43)) (W5 m ρ c (Proc.devRef .tc main_arg3)))
    (h2 : W7 m ρ c (Proc.devRef .tc main_v45) = Cert.GcnSpec.mm128 (W6 m ρ c (Proc.devRef .tc main_v44)) (W6 m ρ c (Proc.devRef .tc main_arg4)))
    (h3 : W9 m ρ c (Proc.devRef .tc main_v59) = Cert.GcnSpec.biasRelu128 (W8 m ρ c (Proc.devRef .tc main_v58)) (W8 m ρ c (Proc.devRef .tc main_arg5)))
    (h4 : W10 m ρ c (Proc.devRef .tc main_v60) = Cert.GcnSpec.mm64 (W9 m ρ c (Proc.devRef .tc main_v59)) (W9 m ρ c (Proc.devRef .tc main_arg6)))
    (h5 : W12 m ρ c (Proc.devRef .tc main_v74) = Cert.GcnSpec.bias64 (W11 m ρ c (Proc.devRef .tc main_v73)) (W11 m ρ c (Proc.devRef .tc main_arg7)))
    (d128 : ∀ x w, Cert.Gcn.dense128 (F := Ideal) x w = Cert.GcnSpec.mm128 x w)
    (d64 : ∀ x w, Cert.Gcn.dense64 (F := Ideal) x w = Cert.GcnSpec.mm64 x w)
    (br : ∀ a b, Cert.Gcn.biasRelu (F := Ideal) a b = Cert.GcnSpec.biasRelu128 a b)
    (bo : ∀ a b, Cert.Gcn.biasOnly (F := Ideal) a b = Cert.GcnSpec.bias64 a b) :
    W12 m ρ c (Proc.devRef .tc main_v74)
      = Cert.Gcn.gcn (F := Ideal) (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  -- the arguments, where each is read
  have a0 : W3 m ρ c (Proc.devRef .tc main_arg0) = m ((c.tc : Thread nD τ).loc main_arg0) :=
    ((show W3 m ρ c (Proc.devRef .tc main_arg0) = W2 m ρ c (Proc.devRef .tc main_arg0) from GcnHost.hostOps0_2_keeps (W2 m ρ c) main_arg0 (by decide)).trans ((show W2 m ρ c (Proc.devRef .tc main_arg0) = W1 m ρ c (Proc.devRef .tc main_arg0) from GcnHost.where_keeps_arg0 (W1 m ρ c)).trans (show W1 m ρ c (Proc.devRef .tc main_arg0) = W0 m ρ c (Proc.devRef .tc main_arg0) from GcnHost.hostOps0_keeps (W0 m ρ c) main_arg0 (by decide)))).trans rfl
  have a2 : W3 m ρ c (Proc.devRef .tc main_arg2) = m ((c.tc : Thread nD τ).loc main_arg2) :=
    ((show W3 m ρ c (Proc.devRef .tc main_arg2) = W2 m ρ c (Proc.devRef .tc main_arg2) from GcnHost.hostOps0_2_keeps (W2 m ρ c) main_arg2 (by decide)).trans ((show W2 m ρ c (Proc.devRef .tc main_arg2) = W1 m ρ c (Proc.devRef .tc main_arg2) from GcnHost.where_keeps_arg2 (W1 m ρ c)).trans (show W1 m ρ c (Proc.devRef .tc main_arg2) = W0 m ρ c (Proc.devRef .tc main_arg2) from GcnHost.hostOps0_keeps (W0 m ρ c) main_arg2 (by decide)))).trans rfl
  have a3 : W5 m ρ c (Proc.devRef .tc main_arg3) = m ((c.tc : Thread nD τ).loc main_arg3) :=
    ((show W5 m ρ c (Proc.devRef .tc main_arg3) = W4 m ρ c (Proc.devRef .tc main_arg3) from GcnHost.hostOps1_keeps (W4 m ρ c) main_arg3 (by decide)).trans ((W4_of_ne m ρ c main_arg3 (by decide)).trans ((show W3 m ρ c (Proc.devRef .tc main_arg3) = W2 m ρ c (Proc.devRef .tc main_arg3) from GcnHost.hostOps0_2_keeps (W2 m ρ c) main_arg3 (by decide)).trans ((show W2 m ρ c (Proc.devRef .tc main_arg3) = W1 m ρ c (Proc.devRef .tc main_arg3) from GcnHost.where_keeps_arg3 (W1 m ρ c)).trans (show W1 m ρ c (Proc.devRef .tc main_arg3) = W0 m ρ c (Proc.devRef .tc main_arg3) from GcnHost.hostOps0_keeps (W0 m ρ c) main_arg3 (by decide)))))).trans rfl
  have a4 : W6 m ρ c (Proc.devRef .tc main_arg4) = m ((c.tc : Thread nD τ).loc main_arg4) :=
    ((W6_of_ne m ρ c main_arg4 (by decide)).trans ((show W5 m ρ c (Proc.devRef .tc main_arg4) = W4 m ρ c (Proc.devRef .tc main_arg4) from GcnHost.hostOps1_keeps (W4 m ρ c) main_arg4 (by decide)).trans ((W4_of_ne m ρ c main_arg4 (by decide)).trans ((show W3 m ρ c (Proc.devRef .tc main_arg4) = W2 m ρ c (Proc.devRef .tc main_arg4) from GcnHost.hostOps0_2_keeps (W2 m ρ c) main_arg4 (by decide)).trans ((show W2 m ρ c (Proc.devRef .tc main_arg4) = W1 m ρ c (Proc.devRef .tc main_arg4) from GcnHost.where_keeps_arg4 (W1 m ρ c)).trans (show W1 m ρ c (Proc.devRef .tc main_arg4) = W0 m ρ c (Proc.devRef .tc main_arg4) from GcnHost.hostOps0_keeps (W0 m ρ c) main_arg4 (by decide))))))).trans rfl
  have a5 : W8 m ρ c (Proc.devRef .tc main_arg5) = m ((c.tc : Thread nD τ).loc main_arg5) :=
    ((show W8 m ρ c (Proc.devRef .tc main_arg5) = W7 m ρ c (Proc.devRef .tc main_arg5) from GcnHost.hostOps3_keeps (W7 m ρ c) main_arg5 (by decide)).trans ((W7_of_ne m ρ c main_arg5 (by decide)).trans ((W6_of_ne m ρ c main_arg5 (by decide)).trans ((show W5 m ρ c (Proc.devRef .tc main_arg5) = W4 m ρ c (Proc.devRef .tc main_arg5) from GcnHost.hostOps1_keeps (W4 m ρ c) main_arg5 (by decide)).trans ((W4_of_ne m ρ c main_arg5 (by decide)).trans ((show W3 m ρ c (Proc.devRef .tc main_arg5) = W2 m ρ c (Proc.devRef .tc main_arg5) from GcnHost.hostOps0_2_keeps (W2 m ρ c) main_arg5 (by decide)).trans ((show W2 m ρ c (Proc.devRef .tc main_arg5) = W1 m ρ c (Proc.devRef .tc main_arg5) from GcnHost.where_keeps_arg5 (W1 m ρ c)).trans (show W1 m ρ c (Proc.devRef .tc main_arg5) = W0 m ρ c (Proc.devRef .tc main_arg5) from GcnHost.hostOps0_keeps (W0 m ρ c) main_arg5 (by decide))))))))).trans rfl
  have a6 : W9 m ρ c (Proc.devRef .tc main_arg6) = m ((c.tc : Thread nD τ).loc main_arg6) :=
    ((W9_of_ne m ρ c main_arg6 (by decide)).trans ((show W8 m ρ c (Proc.devRef .tc main_arg6) = W7 m ρ c (Proc.devRef .tc main_arg6) from GcnHost.hostOps3_keeps (W7 m ρ c) main_arg6 (by decide)).trans ((W7_of_ne m ρ c main_arg6 (by decide)).trans ((W6_of_ne m ρ c main_arg6 (by decide)).trans ((show W5 m ρ c (Proc.devRef .tc main_arg6) = W4 m ρ c (Proc.devRef .tc main_arg6) from GcnHost.hostOps1_keeps (W4 m ρ c) main_arg6 (by decide)).trans ((W4_of_ne m ρ c main_arg6 (by decide)).trans ((show W3 m ρ c (Proc.devRef .tc main_arg6) = W2 m ρ c (Proc.devRef .tc main_arg6) from GcnHost.hostOps0_2_keeps (W2 m ρ c) main_arg6 (by decide)).trans ((show W2 m ρ c (Proc.devRef .tc main_arg6) = W1 m ρ c (Proc.devRef .tc main_arg6) from GcnHost.where_keeps_arg6 (W1 m ρ c)).trans (show W1 m ρ c (Proc.devRef .tc main_arg6) = W0 m ρ c (Proc.devRef .tc main_arg6) from GcnHost.hostOps0_keeps (W0 m ρ c) main_arg6 (by decide)))))))))).trans rfl
  have a7 : W11 m ρ c (Proc.devRef .tc main_arg7) = m ((c.tc : Thread nD τ).loc main_arg7) :=
    ((show W11 m ρ c (Proc.devRef .tc main_arg7) = W10 m ρ c (Proc.devRef .tc main_arg7) from GcnHost.hostOps5_keeps (W10 m ρ c) main_arg7 (by decide)).trans ((W10_of_ne m ρ c main_arg7 (by decide)).trans ((W9_of_ne m ρ c main_arg7 (by decide)).trans ((show W8 m ρ c (Proc.devRef .tc main_arg7) = W7 m ρ c (Proc.devRef .tc main_arg7) from GcnHost.hostOps3_keeps (W7 m ρ c) main_arg7 (by decide)).trans ((W7_of_ne m ρ c main_arg7 (by decide)).trans ((W6_of_ne m ρ c main_arg7 (by decide)).trans ((show W5 m ρ c (Proc.devRef .tc main_arg7) = W4 m ρ c (Proc.devRef .tc main_arg7) from GcnHost.hostOps1_keeps (W4 m ρ c) main_arg7 (by decide)).trans ((W4_of_ne m ρ c main_arg7 (by decide)).trans ((show W3 m ρ c (Proc.devRef .tc main_arg7) = W2 m ρ c (Proc.devRef .tc main_arg7) from GcnHost.hostOps0_2_keeps (W2 m ρ c) main_arg7 (by decide)).trans ((show W2 m ρ c (Proc.devRef .tc main_arg7) = W1 m ρ c (Proc.devRef .tc main_arg7) from GcnHost.where_keeps_arg7 (W1 m ρ c)).trans (show W1 m ρ c (Proc.devRef .tc main_arg7) = W0 m ρ c (Proc.devRef .tc main_arg7) from GcnHost.hostOps0_keeps (W0 m ρ c) main_arg7 (by decide)))))))))))).trans rfl
  -- the edge endpoints and weights, computed before the first region and read after each dense transform
  have s3 : W3 m ρ c (Proc.devRef .tc main_v3) = Cert.Gcn.src (m ((c.tc : Thread nD τ).loc main_arg1)) := GcnHost.entry_src (W0 m ρ c)
  have d3 : W3 m ρ c (Proc.devRef .tc main_v6) = Cert.Gcn.dst (m ((c.tc : Thread nD τ).loc main_arg1)) := GcnHost.entry_dst (W0 m ρ c)
  have n3 : W3 m ρ c (Proc.devRef .tc main_v29) = Cert.Gcn.norm (Cert.Gcn.src (m ((c.tc : Thread nD τ).loc main_arg1))) (Cert.Gcn.dst (m ((c.tc : Thread nD τ).loc main_arg1))) := GcnHost.entry_norm (W0 m ρ c)
  have s4 : W4 m ρ c (Proc.devRef .tc main_v3) = Cert.Gcn.src (m ((c.tc : Thread nD τ).loc main_arg1)) :=
    (W4_of_ne m ρ c main_v3 (by decide)).trans s3
  have d4 : W4 m ρ c (Proc.devRef .tc main_v6) = Cert.Gcn.dst (m ((c.tc : Thread nD τ).loc main_arg1)) :=
    (W4_of_ne m ρ c main_v6 (by decide)).trans d3
  have n4 : W4 m ρ c (Proc.devRef .tc main_v29) = Cert.Gcn.norm (Cert.Gcn.src (m ((c.tc : Thread nD τ).loc main_arg1))) (Cert.Gcn.dst (m ((c.tc : Thread nD τ).loc main_arg1))) :=
    (W4_of_ne m ρ c main_v29 (by decide)).trans n3
  have s7 : W7 m ρ c (Proc.devRef .tc main_v3) = Cert.Gcn.src (m ((c.tc : Thread nD τ).loc main_arg1)) :=
    ((W7_of_ne m ρ c main_v3 (by decide)).trans ((W6_of_ne m ρ c main_v3 (by decide)).trans (show W5 m ρ c (Proc.devRef .tc main_v3) = W4 m ρ c (Proc.devRef .tc main_v3) from GcnHost.hostOps1_keeps (W4 m ρ c) main_v3 (by decide)))).trans s4
  have d7 : W7 m ρ c (Proc.devRef .tc main_v6) = Cert.Gcn.dst (m ((c.tc : Thread nD τ).loc main_arg1)) :=
    ((W7_of_ne m ρ c main_v6 (by decide)).trans ((W6_of_ne m ρ c main_v6 (by decide)).trans (show W5 m ρ c (Proc.devRef .tc main_v6) = W4 m ρ c (Proc.devRef .tc main_v6) from GcnHost.hostOps1_keeps (W4 m ρ c) main_v6 (by decide)))).trans d4
  have n7 : W7 m ρ c (Proc.devRef .tc main_v29) = Cert.Gcn.norm (Cert.Gcn.src (m ((c.tc : Thread nD τ).loc main_arg1))) (Cert.Gcn.dst (m ((c.tc : Thread nD τ).loc main_arg1))) :=
    ((W7_of_ne m ρ c main_v29 (by decide)).trans ((W6_of_ne m ρ c main_v29 (by decide)).trans (show W5 m ρ c (Proc.devRef .tc main_v29) = W4 m ρ c (Proc.devRef .tc main_v29) from GcnHost.hostOps1_keeps (W4 m ρ c) main_v29 (by decide)))).trans n4
  have s10 : W10 m ρ c (Proc.devRef .tc main_v3) = Cert.Gcn.src (m ((c.tc : Thread nD τ).loc main_arg1)) :=
    ((W10_of_ne m ρ c main_v3 (by decide)).trans ((W9_of_ne m ρ c main_v3 (by decide)).trans (show W8 m ρ c (Proc.devRef .tc main_v3) = W7 m ρ c (Proc.devRef .tc main_v3) from GcnHost.hostOps3_keeps (W7 m ρ c) main_v3 (by decide)))).trans s7
  have d10 : W10 m ρ c (Proc.devRef .tc main_v6) = Cert.Gcn.dst (m ((c.tc : Thread nD τ).loc main_arg1)) :=
    ((W10_of_ne m ρ c main_v6 (by decide)).trans ((W9_of_ne m ρ c main_v6 (by decide)).trans (show W8 m ρ c (Proc.devRef .tc main_v6) = W7 m ρ c (Proc.devRef .tc main_v6) from GcnHost.hostOps3_keeps (W7 m ρ c) main_v6 (by decide)))).trans d7
  have n10 : W10 m ρ c (Proc.devRef .tc main_v29) = Cert.Gcn.norm (Cert.Gcn.src (m ((c.tc : Thread nD τ).loc main_arg1))) (Cert.Gcn.dst (m ((c.tc : Thread nD τ).loc main_arg1))) :=
    ((W10_of_ne m ρ c main_v29 (by decide)).trans ((W9_of_ne m ρ c main_v29 (by decide)).trans (show W8 m ρ c (Proc.devRef .tc main_v29) = W7 m ρ c (Proc.devRef .tc main_v29) from GcnHost.hostOps3_keeps (W7 m ρ c) main_v29 (by decide)))).trans n7
  -- layer 1
  have x1 : W4 m ρ c (Proc.devRef .tc main_v30) = Cert.Gcn.dense128 (m ((c.tc : Thread nD τ).loc main_arg0)) (m ((c.tc : Thread nD τ).loc main_arg2)) := by rw [h0, a0, a2]; exact (d128 _ _).symm
  have g1 : W5 m ρ c (Proc.devRef .tc main_v43) = Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1)))) :=
    (GcnHost.aggregate1 (W4 m ρ c)).trans (by rw [x1, s4, d4, n4])
  have y1 : W6 m ρ c (Proc.devRef .tc main_v44) = Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3)) := by rw [h1, g1, a3]; exact (br _ _).symm
  -- layer 2
  have x2 : W7 m ρ c (Proc.devRef .tc main_v45) = Cert.Gcn.dense128 (Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3))) (m ((c.tc : Thread nD τ).loc main_arg4)) := by rw [h2, y1, a4]; exact (d128 _ _).symm
  have g2 : W8 m ρ c (Proc.devRef .tc main_v58) = Cert.Gcn.agg128 (Cert.Gcn.dense128 (Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3))) (m ((c.tc : Thread nD τ).loc main_arg4))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1)))) :=
    (GcnHost.aggregate3 (W7 m ρ c)).trans (by rw [x2, s7, d7, n7])
  have y2 : W9 m ρ c (Proc.devRef .tc main_v59) = Cert.Gcn.biasRelu (Cert.Gcn.agg128 (Cert.Gcn.dense128 (Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3))) (m ((c.tc : Thread nD τ).loc main_arg4))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg5)) := by rw [h3, g2, a5]; exact (br _ _).symm
  -- layer 3
  have x3 : W10 m ρ c (Proc.devRef .tc main_v60) = Cert.Gcn.dense64 (Cert.Gcn.biasRelu (Cert.Gcn.agg128 (Cert.Gcn.dense128 (Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3))) (m ((c.tc : Thread nD τ).loc main_arg4))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg5))) (m ((c.tc : Thread nD τ).loc main_arg6)) := by rw [h4, y2, a6]; exact (d64 _ _).symm
  have g3 : W11 m ρ c (Proc.devRef .tc main_v73) = Cert.Gcn.agg64 (Cert.Gcn.dense64 (Cert.Gcn.biasRelu (Cert.Gcn.agg128 (Cert.Gcn.dense128 (Cert.Gcn.biasRelu (Cert.Gcn.agg128 (Cert.Gcn.dense128 (m ((c.tc : Thread nD τ).loc main_arg0)) (m ((c.tc : Thread nD τ).loc main_arg2))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg3))) (m ((c.tc : Thread nD τ).loc main_arg4))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1))))) (m ((c.tc : Thread nD τ).loc main_arg5))) (m ((c.tc : Thread nD τ).loc main_arg6))) (Cert.Gcn.src (m ((c.tc : Thread nD τ).loc main_arg1))) (Cert.Gcn.dst (m ((c.tc : Thread nD τ).loc main_arg1))) (Cert.Gcn.norm (Cert.Gcn.src (m ((c.tc : Thread nD τ).loc main_arg1))) (Cert.Gcn.dst (m ((c.tc : Thread nD τ).loc main_arg1)))) :=
    (GcnHost.aggregate5 (W10 m ρ c)).trans (by rw [x3, s10, d10, n10])
  rw [h5, g3, a7]
  exact (bo _ _).symm

end Cert.KernelIdeal.GcnValue

end
-- ==== Proof.Region0.lean ====
/-
  The first dense transform of the network, as the array it leaves.

  The kernel walks the 100000 nodes in 20 row tiles of 5000. At tile t it holds rows 5000·t … 5000·t + 4999 of the node
  features and the whole 128 × 128 weight, and leaves in the result's tile the products of those rows with the weight:
  entry (r, j) of the tile is the sum over the 128 input features k of tile[r, k] · weight[k, j] (on the extended reals
  the narrowing of both operands before the product changes nothing, and the sum starts from zero). Row r of tile t is
  row 5000·t + r of the array, the tiles are disjoint and together are all 100000 rows, so the array the region leaves
  is the dense transform of the node features it found, index by index.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.Pipeline (Dat)
open Idealize.ShloMosaic.ValueIdx

/-! ## One tile: rows times the weight -/

/-- The offsets of a whole-block access are all zero. -/
theorem zero_offsets : (![0, 0] : Fin 2 → Nat) = fun _ => 0 := funext fun a => by fin_cases a <;> rfl

/-- The left operand's index at output (r, j) and contraction k: row r … -/
theorem tile0_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column k; -/
theorem tile0_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row k … -/
theorem tile0_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column j. -/
theorem tile0_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry (r, j) of the tile: ∑ₖ x[r, k] · w[k, j]. -/
theorem tile0_apply (x : Vec Ideal S5000x128 .f32) (w : Vec Ideal S128x128 .f32) (r : Fin 5000) (j : Fin 128) :
    k0_pay1 (F := Ideal) x w (ix2 r j) = ∑ k : Fin 128, x (ix2 r k) * w (ix2 k j) := by
  unfold k0_pay1
  refine (Ideal.matmul_constant_zero_apply dot_S5000x128_S128x128_S5000x128_1_0_0_1_n_n none _ _ (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact tile0_lhs_row _ _
    | ⟨1, _⟩ => exact (tile0_lhs_col _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (tile0_rhs_row _ _).trans hk
    | ⟨1, _⟩ => exact tile0_rhs_col _ _)
  rw [truncf_apply, truncf_apply, el, er]

/-- So a tile whose rows are rows of an array X — row r of the tile is row i₀ of X — against a weight tile that is the
    weight W's column i₁ at column j, stores at (r, j) the dense transform of X by W at (i₀, i₁). -/
theorem tile0_point (X : S100000x128.Idx → EReal) (W : S128x128.Idx → EReal)
    (x : Vec Ideal S5000x128 .f32) (w : Vec Ideal S128x128 .f32) (r : Fin 5000) (j : Fin 128) (i : S100000x128.Idx)
    (hx : ∀ k : Fin 128, x (ix2 r k) = X (ix2 (i 0) k)) (hw : ∀ k : Fin 128, w (ix2 k j) = W (ix2 k (i 1))) :
    k0_pay1 (F := Ideal) x w (ix2 r j) = Cert.GcnSpec.mm128 X W i := by
  rw [tile0_apply]
  show _ = ∑ k : Fin 128, X (ix2 (i 0) k) * W (ix2 k (i 1))
  exact Finset.sum_congr rfl fun k _ => by rw [hx k, hw k]

/-! ## Where a tile sits in the arrays -/

/-- The block indices over the 20 tiles: the left operand's row block moves with the result's, which is the tile's
    number; every other block index is 0 (the weight is one block, and each array is one block wide). -/
theorem tile0_index : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT TILE t WRITES BACK is tile t of the dense transform of the arrays the region found. -/
theorem tile0_flushed (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.GcnSpec.mm128 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := tile0_index t
  have key : ∀ y : S5000x128.Idx, k0_pay1 (F := Ideal) (iblk0 V c 0 t) (iblk0 V c 1 t) y
      = Cert.GcnSpec.mm128 (V c main_arg0) (V c main_arg2) (((cfg0.win 2).blk t).view.emb y) := by
    intro y
    obtain ⟨r, j, rfl⟩ : ∃ (r : Fin 5000) (j : Fin 128), y = ix2 r j := ⟨y 0, y 1, eq_ix2 y⟩
    refine tile0_point (V c main_arg0) (V c main_arg2) _ _ r j _ (fun k => ?_) (fun k => ?_)
    · show V c main_arg0 (((cfg0.win 0).blk t).view.emb (ix2 r k)) = _
      congr 1
      funext a; apply Fin.ext
      match a with
      | ⟨0, _⟩ => show win0_0.index t (0 : Fin 2) * 5000 + 1 * r.val = win0_2.index t (0 : Fin 2) * 5000 + 1 * r.val; omega
      | ⟨1, _⟩ => show win0_0.index t (1 : Fin 2) * 128 + 1 * k.val = k.val; omega
    · show V c main_arg2 (((cfg0.win 1).blk t).view.emb (ix2 k j)) = _
      congr 1
      funext a; apply Fin.ext
      match a with
      | ⟨0, _⟩ => show win0_1.index t (0 : Fin 2) * 128 + 1 * k.val = k.val; omega
      | ⟨1, _⟩ => show win0_1.index t (1 : Fin 2) * 128 + 1 * j.val = win0_2.index t (1 : Fin 2) * 128 + 1 * j.val; omega
  exact funext key

/-- An index of the result array is in tile t iff each coordinate is in the tile's range on its axis. -/
theorem tile0_mem (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every row is in a tile: row r in tile r / 5000. -/
theorem tile0_cover (i : S100000x128.Idx) :
    ∃ t : Fin cfg0.N, (cfg0.win 2).flush t = true ∧ i ∈ ((cfg0.win 2).blk t).view.set := by
  have h0 : (i 0).val < 100000 := idx2_lt0 i
  have h1 : (i 1).val < 128 := idx2_lt1 i
  have hN : cfg0.N = 20 := N_0
  obtain ⟨t, ht⟩ : ∃ t : Fin cfg0.N, t.val = (i 0).val / 5000 := ⟨⟨(i 0).val / 5000, by rw [hN]; omega⟩, rfl⟩
  obtain ⟨e0, e1, e2, e3, e4, e5⟩ := tile0_index t
  refine ⟨t, flush0_2 t, ?_⟩
  rw [tile0_mem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-! ## The array -/

/-- THE ARRAY the region leaves: the dense transform of the node features by the weight, as the region found them. -/
theorem region0_value (V : (c : Dev nD) → (b : Ref sig .tc) → Buf (Elt Ideal) ((c : Thread nD τ).loc b)) (c : Dev nD) :
    (dat0 (F := Ideal) V c).arrAt 2 cfg0.N = Cert.GcnSpec.mm128 (V c main_arg0) (V c main_arg2) :=
  (dat0 (F := Ideal) V c).arrAt_eq_of_cover 2 _ (fun t _ => tile0_flushed V c t) tile0_cover

end Cert.GcnRegions

end
-- ==== Proof.Region1.lean ====
/-
  Region 1 (the first bias-and-clamp stage): what its output array holds after the region, for any contents of the
  TensorCore's buffers at entry.

  The region walks the 100000 rows in 20 blocks of 5000. At point t it reads rows 5000 t … 5000 t + 4999 of the
  row-tiled array and the whole bias vector, and writes back, into the same rows of the output array, the entry
  (r, j) ↦ max (s[r, j] + b[j]) 0. The 20 blocks tile the array, so the array ends holding that function of the
  two inputs everywhere: the specification's `biasRelu128`.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueLayout
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a rank-2 whole-buffer access. -/
theorem r1_zero2 : (![0, 0] : Fin 2 → Nat) = fun _ => 0 := funext fun a => by fin_cases a <;> rfl
/-- The zero offset of a rank-1 whole-buffer access. -/
theorem r1_zero1 : (![0] : Fin 1 → Nat) = fun _ => 0 := funext fun a => by fin_cases a <;> rfl

/-- The body's payload read at row r, column j: the row entry plus the bias entry of the column, clamped below at 0.
    (The bias is cast [128] → [1, 128] and its one row broadcast over the 5000 rows; the zero word is the real 0.) -/
theorem pay1_apply (b : Vec Ideal S128 .f32) (x : Vec Ideal S5000x128 .f32) (r : Fin 5000) (j : Fin 128) :
    k1_pay1 b x (ix2 r j) = max (x (ix2 r j) + b (ix1 j)) 0 := by
  unfold k1_pay1
  rw [maximumf_apply, addf_apply, broadcast_apply, shapeCast_self, broadcastTo_1b_ab_apply, shapeCast_self,
    shapeCast_a_1a_apply]
  rw [show (Scalar.ofBits (F := Ideal) .f32 0x00000000#32) = Ideal.ofBits .f32 0x00000000#32 from rfl, Ideal.ofBits_zero_f32]

/-- The index maps over the grid: at point t the row-tiled windows sit at row block t and column block 0, the bias
    window at block 0. -/
theorem idx_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- The grid has 20 points. -/
theorem lt20_1 (t : Fin cfg1.N) : t.val < 20 := by
  have h := t.isLt
  have hN : cfg1.N = 20 := N_1
  omega

/-- Row r, column j of point t's input block is row 5000 t + r, column j of the row-tiled array. -/
theorem iblk1_0_apply (c : Dev nD) (t : Fin cfg1.N) (r : Fin 5000) (j : Fin 128) :
    (iblk1 V c 0 t : Vec Ideal S5000x128 .f32) (ix2 r j)
      = (V c main_v43 : S100000x128.Idx → EReal) (ix2 ⟨t.val * 5000 + r.val, by have := lt20_1 t; omega⟩ j) := by
  obtain ⟨e0, e1, -, -, -⟩ := idx_facts1 t
  unfold iblk1
  rw [View.read_apply]
  show V c main_v43 _ = V c main_v43 _
  congr 1
  funext a
  apply Fin.ext
  match a with
  | ⟨0, _⟩ => show win1_0.index t 0 * 5000 + 1 * r.val = t.val * 5000 + r.val; rw [e0]; omega
  | ⟨1, _⟩ => show win1_0.index t 1 * 128 + 1 * j.val = j.val; rw [e1]; omega

/-- Entry j of the bias block is entry j of the bias vector, at every point. -/
theorem iblk1_1_apply (c : Dev nD) (t : Fin cfg1.N) (j : Fin 128) :
    (iblk1 V c 1 t : Vec Ideal S128 .f32) (ix1 j) = (V c main_arg3 : S128.Idx → EReal) (ix1 j) := by
  obtain ⟨-, -, e2, -, -⟩ := idx_facts1 t
  unfold iblk1
  rw [View.read_apply]
  show V c main_arg3 _ = V c main_arg3 _
  congr 1
  funext a
  apply Fin.ext
  match a with
  | ⟨0, _⟩ => show win1_1.index t 0 * 128 + 1 * j.val = j.val; rw [e2]; omega

/-- Row r, column j of point t's output block sits at row 5000 t + r, column j of the output array. -/
theorem emb1_2 (t : Fin cfg1.N) (r : Fin 5000) (j : Fin 128) :
    (((cfg1.win 2).blk t).view.emb (ix2 r j) : S100000x128.Idx)
      = ix2 ⟨t.val * 5000 + r.val, by have := lt20_1 t; omega⟩ j := by
  obtain ⟨-, -, -, e3, e4⟩ := idx_facts1 t
  funext a
  apply Fin.ext
  match a with
  | ⟨0, _⟩ => show win1_2.index t 0 * 5000 + 1 * r.val = t.val * 5000 + r.val; rw [e3]; omega
  | ⟨1, _⟩ => show win1_2.index t 1 * 128 + 1 * j.val = j.val; rw [e4]; omega

/-- What point t writes back is block t of the specification's array of the two inputs as the region finds them. -/
theorem flushed1_eq (c : Dev nD) (t : Fin cfg1.N) :
    (dat1 V c).flushed 2 t
      = ((cfg1.win 2).blk t).view.read (Elt Ideal) (Cert.GcnSpec.biasRelu128 (V c main_v43) (V c main_arg3)) := by
  show (cfg1.win 2).cut (grid1.coords t) ((dat1 V c).after 2 t) = _
  rw [after1_2]
  unfold out1_2
  rw [View.canon_unit_zero r1_zero2]
  simp only [View.ld_unit_zero (S := S5000x128) r1_zero2, View.ld_unit_zero (S := S128) r1_zero1]
  have key : ∀ y : S5000x128.Idx, k1_pay1 (iblk1 V c 1 t) (iblk1 V c 0 t) y
      = Cert.GcnSpec.biasRelu128 (V c main_v43) (V c main_arg3) (((cfg1.win 2).blk t).view.emb y) := by
    intro y
    obtain ⟨r, j, rfl⟩ : ∃ (r : Fin 5000) (j : Fin 128), y = ix2 r j := ⟨y 0, y 1, eq_ix2 y⟩
    rw [pay1_apply, iblk1_0_apply, iblk1_1_apply, emb1_2 t r j, Cert.GcnSpec.biasRelu128_apply]
  funext y
  exact key y

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- The 20 blocks of 5000 rows tile the 100000 rows: row r is in the block of point r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by omega⟩, rfl⟩
  obtain ⟨-, -, -, e3, e4⟩ := idx_facts1 t
  refine ⟨t, flush1_2 t, ?_⟩
  rw [mem_blk1]
  intro a
  match a with
  | ⟨0, _⟩ =>
    show win1_2.index t (0 : Fin 2) * 5000 ≤ (i 0).val ∧ (i 0).val < win1_2.index t (0 : Fin 2) * 5000 + 5000
    rw [e3]; omega
  | ⟨1, _⟩ =>
    show win1_2.index t (1 : Fin 2) * 128 ≤ (i 1).val ∧ (i 1).val < win1_2.index t (1 : Fin 2) * 128 + 128
    rw [e4]; omega

/-- THE OUTPUT ARRAY after region 1: bias added and clamped at zero, entry by entry, of the region's two inputs. -/
theorem region1_value (c : Dev nD) :
    (dat1 (F := Ideal) V c).arrAt 2 cfg1.N = Cert.GcnSpec.biasRelu128 (V c main_v43) (V c main_arg3) :=
  (dat1 V c).arrAt_eq_of_cover 2 (Cert.GcnSpec.biasRelu128 (V c main_v43) (V c main_arg3))
    (fun t _ => flushed1_eq V c t) cover1

end Cert.GcnRegions

end
-- ==== Proof.Region2.lean ====
/-
  The second dense transform of the network, as the array it leaves.

  The kernel walks the 100000 nodes in 20 row tiles of 5000. At tile t it holds rows 5000·t … 5000·t + 4999 of the node
  features (the first layer's activations) and the whole 128 × 128 weight, and leaves in the result's tile the products
  of those rows with the weight: entry (r, j) of the tile is the sum over the 128 input features k of
  tile[r, k] · weight[k, j] (recasting the tile to its own shape is the identity, on the extended reals the narrowing of
  both operands before the product changes nothing, and the sum starts from zero). Row r of tile t is
  row 5000·t + r of the array, the tiles are disjoint and together are all 100000 rows, so the array the region leaves
  is the dense transform of the node features it found, index by index.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.Pipeline (Dat)
open Idealize.ShloMosaic.ValueIdx

/-! ## One tile: rows times the weight -/

/-- The offsets of a whole-block access are all zero. -/
theorem zero_offsets2 : (![0, 0] : Fin 2 → Nat) = fun _ => 0 := funext fun a => by fin_cases a <;> rfl

/-- The left operand's index at output (r, j) and contraction k: row r … -/
theorem tile2_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … column k; -/
theorem tile2_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand's: row k … -/
theorem tile2_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … column j. -/
theorem tile2_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- What the body stores, at entry (r, j) of the tile: ∑ₖ x[r, k] · w[k, j]. -/
theorem tile2_apply (x : Vec Ideal S5000x128 .f32) (w : Vec Ideal S128x128 .f32) (r : Fin 5000) (j : Fin 128) :
    k2_pay1 (F := Ideal) x w (ix2 r j) = ∑ k : Fin 128, x (ix2 r k) * w (ix2 k j) := by
  unfold k2_pay1
  refine (Ideal.matmul_constant_zero_apply dot_S5000x128_S128x128_S5000x128_1_0_0_1_n_n none _ _ (ix2 r j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k := funext fun a => Fin.ext (by
    match a with
    | ⟨0, _⟩ => exact tile2_lhs_row _ _
    | ⟨1, _⟩ => exact (tile2_lhs_col _ _).trans hk)
  have er : dot_S5000x128_S128x128_S5000x128_1_0_0_1_n_n.rhsIdx (ix2 r j) ((contrEquiv1 dot_S5000x128_S128x128_S5000x128_1_0_0_1_n_n 128 rfl rfl).symm k) = ix2 k j := funext fun a => Fin.ext (by
    match a with
    | ⟨0, _⟩ => exact (tile2_rhs_row _ _).trans hk
    | ⟨1, _⟩ => exact tile2_rhs_col _ _)
  rw [truncf_apply, truncf_apply, shapeCast_self, el, er]

/-- So a tile whose rows are rows of an array X — row r of the tile is row i₀ of X — against a weight tile that is the
    weight W's column i₁ at column j, stores at (r, j) the dense transform of X by W at (i₀, i₁). -/
theorem tile2_point (X : S100000x128.Idx → EReal) (W : S128x128.Idx → EReal)
    (x : Vec Ideal S5000x128 .f32) (w : Vec Ideal S128x128 .f32) (r : Fin 5000) (j : Fin 128) (i : S100000x128.Idx)
    (hx : ∀ k : Fin 128, x (ix2 r k) = X (ix2 (i 0) k)) (hw : ∀ k : Fin 128, w (ix2 k j) = W (ix2 k (i 1))) :
    k2_pay1 (F := Ideal) x w (ix2 r j) = Cert.GcnSpec.mm128 X W i := by
  rw [tile2_apply]
  show _ = ∑ k : Fin 128, X (ix2 (i 0) k) * W (ix2 k (i 1))
  exact Finset.sum_congr rfl fun k _ => by rw [hx k, hw k]

/-! ## Where a tile sits in the arrays -/

/-- The block indices over the 20 tiles: the left operand's row block moves with the result's, which is the tile's
    number; every other block index is 0 (the weight is one block, and each array is one block wide). -/
theorem tile2_index : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT TILE t WRITES BACK is tile t of the dense transform of the arrays the region found. -/
theorem tile2_flushed (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.GcnSpec.mm128 (V c main_v44) (V c main_arg4)) := by
  show (cfg2.win 2).cut (grid2.coords t) ((dat2 (F := Ideal) V c).after 2 t) = _
  rw [after2_2]
  unfold out2_2
  rw [View.canon_unit_zero zero_offsets2]
  simp only [View.ld_unit_zero (S := S5000x128) zero_offsets2, View.ld_unit_zero (S := S128x128) zero_offsets2]
  obtain ⟨e0, e1, e2, e3, e4, e5⟩ := tile2_index t
  have key : ∀ y : S5000x128.Idx, k2_pay1 (F := Ideal) (iblk2 V c 0 t) (iblk2 V c 1 t) y
      = Cert.GcnSpec.mm128 (V c main_v44) (V c main_arg4) (((cfg2.win 2).blk t).view.emb y) := by
    intro y
    obtain ⟨r, j, rfl⟩ : ∃ (r : Fin 5000) (j : Fin 128), y = ix2 r j := ⟨y 0, y 1, eq_ix2 y⟩
    refine tile2_point (V c main_v44) (V c main_arg4) _ _ r j _ (fun k => ?_) (fun k => ?_)
    · show V c main_v44 (((cfg2.win 0).blk t).view.emb (ix2 r k)) = _
      congr 1
      funext a; apply Fin.ext
      match a with
      | ⟨0, _⟩ => show win2_0.index t (0 : Fin 2) * 5000 + 1 * r.val = win2_2.index t (0 : Fin 2) * 5000 + 1 * r.val; omega
      | ⟨1, _⟩ => show win2_0.index t (1 : Fin 2) * 128 + 1 * k.val = k.val; omega
    · show V c main_arg4 (((cfg2.win 1).blk t).view.emb (ix2 k j)) = _
      congr 1
      funext a; apply Fin.ext
      match a with
      | ⟨0, _⟩ => show win2_1.index t (0 : Fin 2) * 128 + 1 * k.val = k.val; omega
      | ⟨1, _⟩ => show win2_1.index t (1 : Fin 2) * 128 + 1 * j.val = win2_2.index t (1 : Fin 2) * 128 + 1 * j.val; omega
  exact funext key

/-- An index of the result array is in tile t iff each coordinate is in the tile's range on its axis. -/
theorem tile2_mem (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v45).slice (win2_2.rect t)).set ↔ _
  rw [View.set_slice_whole, Rect.mem_set_unit]
  exact Iff.rfl

/-- Every row is in a tile: row r in tile r / 5000. -/
theorem tile2_cover (i : S100000x128.Idx) :
    ∃ t : Fin cfg2.N, (cfg2.win 2).flush t = true ∧ i ∈ ((cfg2.win 2).blk t).view.set := by
  have h0 : (i 0).val < 100000 := idx2_lt0 i
  have h1 : (i 1).val < 128 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := tile2_index t
  refine ⟨t, flush2_2 t, ?_⟩
  rw [tile2_mem]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-! ## The array -/

/-- THE ARRAY the region leaves: the dense transform of the node features by the weight, as the region found them. -/
theorem region2_value (V : (c : Dev nD) → (b : Ref sig .tc) → Buf (Elt Ideal) ((c : Thread nD τ).loc b)) (c : Dev nD) :
    (dat2 (F := Ideal) V c).arrAt 2 cfg2.N = Cert.GcnSpec.mm128 (V c main_v44) (V c main_arg4) :=
  (dat2 (F := Ideal) V c).arrAt_eq_of_cover 2 _ (fun t _ => tile2_flushed V c t) tile2_cover

end Cert.GcnRegions

end
-- ==== Proof.Region3.lean ====
/-
  Region 3 (the second bias-and-clamp stage): what its output array holds after the region, for any contents of the
  TensorCore's buffers at entry.

  The region walks the 100000 rows in 20 blocks of 5000. At point t it reads rows 5000 t … 5000 t + 4999 of the
  row-tiled array and the whole bias vector, and writes back, into the same rows of the output array, the entry
  (r, j) ↦ max (s[r, j] + b[j]) 0. The 20 blocks tile the array, so the array ends holding that function of the
  two inputs everywhere: the specification's `biasRelu128`.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueLayout
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a rank-2 whole-buffer access. -/
theorem r3_zero2 : (![0, 0] : Fin 2 → Nat) = fun _ => 0 := funext fun a => by fin_cases a <;> rfl
/-- The zero offset of a rank-1 whole-buffer access. -/
theorem r3_zero1 : (![0] : Fin 1 → Nat) = fun _ => 0 := funext fun a => by fin_cases a <;> rfl

/-- The body's payload read at row r, column j: the row entry plus the bias entry of the column, clamped below at 0.
    (The bias is cast [128] → [1, 128] and its one row broadcast over the 5000 rows; the zero word is the real 0.) -/
theorem pay3_apply (b : Vec Ideal S128 .f32) (x : Vec Ideal S5000x128 .f32) (r : Fin 5000) (j : Fin 128) :
    k3_pay1 b x (ix2 r j) = max (x (ix2 r j) + b (ix1 j)) 0 := by
  unfold k3_pay1
  rw [maximumf_apply, addf_apply, broadcast_apply, shapeCast_self, broadcastTo_1b_ab_apply, shapeCast_self,
    shapeCast_a_1a_apply]
  rw [show (Scalar.ofBits (F := Ideal) .f32 0x00000000#32) = Ideal.ofBits .f32 0x00000000#32 from rfl, Ideal.ofBits_zero_f32]

/-- The index maps over the grid: at point t the row-tiled windows sit at row block t and column block 0, the bias
    window at block 0. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The grid has 20 points. -/
theorem lt20_3 (t : Fin cfg3.N) : t.val < 20 := by
  have h := t.isLt
  have hN : cfg3.N = 20 := N_3
  omega

/-- Row r, column j of point t's input block is row 5000 t + r, column j of the row-tiled array. -/
theorem iblk3_0_apply (c : Dev nD) (t : Fin cfg3.N) (r : Fin 5000) (j : Fin 128) :
    (iblk3 V c 0 t : Vec Ideal S5000x128 .f32) (ix2 r j)
      = (V c main_v58 : S100000x128.Idx → EReal) (ix2 ⟨t.val * 5000 + r.val, by have := lt20_3 t; omega⟩ j) := by
  obtain ⟨e0, e1, -, -, -⟩ := idx_facts3 t
  unfold iblk3
  rw [View.read_apply]
  show V c main_v58 _ = V c main_v58 _
  congr 1
  funext a
  apply Fin.ext
  match a with
  | ⟨0, _⟩ => show win3_0.index t 0 * 5000 + 1 * r.val = t.val * 5000 + r.val; rw [e0]; omega
  | ⟨1, _⟩ => show win3_0.index t 1 * 128 + 1 * j.val = j.val; rw [e1]; omega

/-- Entry j of the bias block is entry j of the bias vector, at every point. -/
theorem iblk3_1_apply (c : Dev nD) (t : Fin cfg3.N) (j : Fin 128) :
    (iblk3 V c 1 t : Vec Ideal S128 .f32) (ix1 j) = (V c main_arg5 : S128.Idx → EReal) (ix1 j) := by
  obtain ⟨-, -, e2, -, -⟩ := idx_facts3 t
  unfold iblk3
  rw [View.read_apply]
  show V c main_arg5 _ = V c main_arg5 _
  congr 1
  funext a
  apply Fin.ext
  match a with
  | ⟨0, _⟩ => show win3_1.index t 0 * 128 + 1 * j.val = j.val; rw [e2]; omega

/-- Row r, column j of point t's output block sits at row 5000 t + r, column j of the output array. -/
theorem emb3_2 (t : Fin cfg3.N) (r : Fin 5000) (j : Fin 128) :
    (((cfg3.win 2).blk t).view.emb (ix2 r j) : S100000x128.Idx)
      = ix2 ⟨t.val * 5000 + r.val, by have := lt20_3 t; omega⟩ j := by
  obtain ⟨-, -, -, e3, e4⟩ := idx_facts3 t
  funext a
  apply Fin.ext
  match a with
  | ⟨0, _⟩ => show win3_2.index t 0 * 5000 + 1 * r.val = t.val * 5000 + r.val; rw [e3]; omega
  | ⟨1, _⟩ => show win3_2.index t 1 * 128 + 1 * j.val = j.val; rw [e4]; omega

/-- What point t writes back is block t of the specification's array of the two inputs as the region finds them. -/
theorem flushed3_eq (c : Dev nD) (t : Fin cfg3.N) :
    (dat3 V c).flushed 2 t
      = ((cfg3.win 2).blk t).view.read (Elt Ideal) (Cert.GcnSpec.biasRelu128 (V c main_v58) (V c main_arg5)) := by
  show (cfg3.win 2).cut (grid3.coords t) ((dat3 V c).after 2 t) = _
  rw [after3_2]
  unfold out3_2
  rw [View.canon_unit_zero r3_zero2]
  simp only [View.ld_unit_zero (S := S5000x128) r3_zero2, View.ld_unit_zero (S := S128) r3_zero1]
  have key : ∀ y : S5000x128.Idx, k3_pay1 (iblk3 V c 1 t) (iblk3 V c 0 t) y
      = Cert.GcnSpec.biasRelu128 (V c main_v58) (V c main_arg5) (((cfg3.win 2).blk t).view.emb y) := by
    intro y
    obtain ⟨r, j, rfl⟩ : ∃ (r : Fin 5000) (j : Fin 128), y = ix2 r j := ⟨y 0, y 1, eq_ix2 y⟩
    rw [pay3_apply, iblk3_0_apply, iblk3_1_apply, emb3_2 t r j, Cert.GcnSpec.biasRelu128_apply]
  funext y
  exact key y

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v59).slice (win3_2.rect t)).set ↔ _
  rw [View.set_slice_whole, Rect.mem_set_unit]
  exact Iff.rfl

/-- The 20 blocks of 5000 rows tile the 100000 rows: row r is in the block of point r / 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by omega⟩, rfl⟩
  obtain ⟨-, -, -, e3, e4⟩ := idx_facts3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e3]; omega
  | ⟨1, _⟩ =>
    show win3_2.index t (1 : Fin 2) * 128 ≤ (i 1).val ∧ (i 1).val < win3_2.index t (1 : Fin 2) * 128 + 128
    rw [e4]; omega

/-- THE OUTPUT ARRAY after region 3: bias added and clamped at zero, entry by entry, of the region's two inputs. -/
theorem region3_value (c : Dev nD) :
    (dat3 (F := Ideal) V c).arrAt 2 cfg3.N = Cert.GcnSpec.biasRelu128 (V c main_v58) (V c main_arg5) :=
  (dat3 V c).arrAt_eq_of_cover 2 (Cert.GcnSpec.biasRelu128 (V c main_v58) (V c main_arg5))
    (fun t _ => flushed3_eq V c t) cover3

end Cert.GcnRegions

end
-- ==== Proof.Region4.lean ====
/-
  The third dense transform of the network, into 64 features, as the array it leaves.

  The kernel walks the 100000 nodes in 20 row tiles of 5000. At tile t it holds rows 5000·t … 5000·t + 4999 of the node
  features (the second layer's activations) and the whole 128 × 64 weight, and leaves in the result's tile the products
  of those rows with the weight: entry (r, j) of the tile is the sum over the 128 input features k of
  tile[r, k] · weight[k, j] (recasting the tile to its own shape is the identity, on the extended reals the narrowing of
  both operands before the product changes nothing, and the sum starts from zero). Row r of tile t is
  row 5000·t + r of the array, the tiles are disjoint and together are all 100000 rows, so the array the region leaves
  is the dense transform of the node features it found, index by index.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.Pipeline (Dat)
open Idealize.ShloMosaic.ValueIdx

/-! ## One tile: rows times the weight -/

/-- The offsets of a whole-block access are all zero. -/
theorem zero_offsets4 : (![0, 0] : Fin 2 → Nat) = fun _ => 0 := funext fun a => by fin_cases a <;> rfl

/-- The left operand's index at output (r, j) and contraction k: row r … -/
theorem tile4_lhs_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … column k; -/
theorem tile4_lhs_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand's: row k … -/
theorem tile4_rhs_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- … column j. -/
theorem tile4_rhs_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- What the body stores, at entry (r, j) of the tile: ∑ₖ x[r, k] · w[k, j]. -/
theorem tile4_apply (x : Vec Ideal S5000x128 .f32) (w : Vec Ideal S128x64 .f32) (r : Fin 5000) (j : Fin 64) :
    k4_pay1 (F := Ideal) x w (ix2 r j) = ∑ k : Fin 128, x (ix2 r k) * w (ix2 k j) := by
  unfold k4_pay1
  refine (Ideal.matmul_constant_zero_apply dot_S5000x128_S128x64_S5000x64_1_0_0_1_n_n none _ _ (ix2 r j)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 r j) ((contrEquiv1 dot_S5000x128_S128x64_S5000x64_1_0_0_1_n_n 128 rfl rfl).symm k) = ix2 r k := funext fun a => Fin.ext (by
    match a with
    | ⟨0, _⟩ => exact tile4_lhs_row _ _
    | ⟨1, _⟩ => exact (tile4_lhs_col _ _).trans hk)
  have er : dot_S5000x128_S128x64_S5000x64_1_0_0_1_n_n.rhsIdx (ix2 r j) ((contrEquiv1 dot_S5000x128_S128x64_S5000x64_1_0_0_1_n_n 128 rfl rfl).symm k) = ix2 k j := funext fun a => Fin.ext (by
    match a with
    | ⟨0, _⟩ => exact (tile4_rhs_row _ _).trans hk
    | ⟨1, _⟩ => exact tile4_rhs_col _ _)
  rw [truncf_apply, truncf_apply, shapeCast_self, el, er]

/-- So a tile whose rows are rows of an array X — row r of the tile is row i₀ of X — against a weight tile that is the
    weight W's column i₁ at column j, stores at (r, j) the dense transform of X by W at (i₀, i₁). -/
theorem tile4_point (X : S100000x128.Idx → EReal) (W : S128x64.Idx → EReal)
    (x : Vec Ideal S5000x128 .f32) (w : Vec Ideal S128x64 .f32) (r : Fin 5000) (j : Fin 64) (i : S100000x64.Idx)
    (hx : ∀ k : Fin 128, x (ix2 r k) = X (ix2 (i 0) k)) (hw : ∀ k : Fin 128, w (ix2 k j) = W (ix2 k (i 1))) :
    k4_pay1 (F := Ideal) x w (ix2 r j) = Cert.GcnSpec.mm64 X W i := by
  rw [tile4_apply]
  show _ = ∑ k : Fin 128, X (ix2 (i 0) k) * W (ix2 k (i 1))
  exact Finset.sum_congr rfl fun k _ => by rw [hx k, hw k]

/-! ## Where a tile sits in the arrays -/

/-- The block indices over the 20 tiles: the left operand's row block moves with the result's, which is the tile's
    number; every other block index is 0 (the weight is one block, and each array is one block wide). -/
theorem tile4_index : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- WHAT TILE t WRITES BACK is tile t of the dense transform of the arrays the region found. -/
theorem tile4_flushed (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (Cert.GcnSpec.mm64 (V c main_v59) (V c main_arg6)) := by
  show (cfg4.win 2).cut (grid4.coords t) ((dat4 (F := Ideal) V c).after 2 t) = _
  rw [after4_2]
  unfold out4_2
  rw [View.canon_unit_zero zero_offsets4]
  simp only [View.ld_unit_zero (S := S5000x128) zero_offsets4, View.ld_unit_zero (S := S128x64) zero_offsets4]
  obtain ⟨e0, e1, e2, e3, e4, e5⟩ := tile4_index t
  have key : ∀ y : S5000x64.Idx, k4_pay1 (F := Ideal) (iblk4 V c 0 t) (iblk4 V c 1 t) y
      = Cert.GcnSpec.mm64 (V c main_v59) (V c main_arg6) (((cfg4.win 2).blk t).view.emb y) := by
    intro y
    obtain ⟨r, j, rfl⟩ : ∃ (r : Fin 5000) (j : Fin 64), y = ix2 r j := ⟨y 0, y 1, eq_ix2 y⟩
    refine tile4_point (V c main_v59) (V c main_arg6) _ _ r j _ (fun k => ?_) (fun k => ?_)
    · show V c main_v59 (((cfg4.win 0).blk t).view.emb (ix2 r k)) = _
      congr 1
      funext a; apply Fin.ext
      match a with
      | ⟨0, _⟩ => show win4_0.index t (0 : Fin 2) * 5000 + 1 * r.val = win4_2.index t (0 : Fin 2) * 5000 + 1 * r.val; omega
      | ⟨1, _⟩ => show win4_0.index t (1 : Fin 2) * 128 + 1 * k.val = k.val; omega
    · show V c main_arg6 (((cfg4.win 1).blk t).view.emb (ix2 k j)) = _
      congr 1
      funext a; apply Fin.ext
      match a with
      | ⟨0, _⟩ => show win4_1.index t (0 : Fin 2) * 128 + 1 * k.val = k.val; omega
      | ⟨1, _⟩ => show win4_1.index t (1 : Fin 2) * 64 + 1 * j.val = win4_2.index t (1 : Fin 2) * 64 + 1 * j.val; omega
  exact funext key

/-- An index of the result array is in tile t iff each coordinate is in the tile's range on its axis. -/
theorem tile4_mem (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v60).slice (win4_2.rect t)).set ↔ _
  rw [View.set_slice_whole, Rect.mem_set_unit]
  exact Iff.rfl

/-- Every row is in a tile: row r in tile r / 5000. -/
theorem tile4_cover (i : S100000x64.Idx) :
    ∃ t : Fin cfg4.N, (cfg4.win 2).flush t = true ∧ i ∈ ((cfg4.win 2).blk t).view.set := by
  have h0 : (i 0).val < 100000 := idx2_lt0 i
  have h1 : (i 1).val < 64 := idx2_lt1 i
  have hN : cfg4.N = 20 := N_4
  obtain ⟨t, ht⟩ : ∃ t : Fin cfg4.N, t.val = (i 0).val / 5000 := ⟨⟨(i 0).val / 5000, by rw [hN]; omega⟩, rfl⟩
  obtain ⟨e0, e1, e2, e3, e4, e5⟩ := tile4_index t
  refine ⟨t, flush4_2 t, ?_⟩
  rw [tile4_mem]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-! ## The array -/

/-- THE ARRAY the region leaves: the dense transform, into 64 features, of the node features by the weight, as the region found them. -/
theorem region4_value (V : (c : Dev nD) → (b : Ref sig .tc) → Buf (Elt Ideal) ((c : Thread nD τ).loc b)) (c : Dev nD) :
    (dat4 (F := Ideal) V c).arrAt 2 cfg4.N = Cert.GcnSpec.mm64 (V c main_v59) (V c main_arg6) :=
  (dat4 (F := Ideal) V c).arrAt_eq_of_cover 2 _ (fun t _ => tile4_flushed V c t) tile4_cover

end Cert.GcnRegions

end
-- ==== Proof.Region5.lean ====
/-
  Region 5 (the last layer's bias stage, no activation): what its output array holds after the region, for any
  contents of the TensorCore's buffers at entry.

  The region walks the 100000 rows in 20 blocks of 5000. At point t it reads rows 5000 t … 5000 t + 4999 of the
  row-tiled array (64 columns) and the whole bias vector, and writes back, into the same rows of the output array,
  the entry (r, j) ↦ s[r, j] + b[j]. The 20 blocks tile the array, so the array ends holding that function of the
  two inputs everywhere: the specification's `bias64`.
-/
import proofs.«139202_j54924041781475_1_alg».proof.Proof.Gen.KernelIdeal.Frame
import proofs.«139202_j54924041781475_1_alg».proof.Proof.GcnSpec
import Idealize.ShloMosaic.Lib.Pipeline.Value
import Idealize.ShloMosaic.Lib.ValueLayout
import Idealize.ShloMosaic.Lib.ValueIdx
import Idealize.ShloMosaic.PureOps.Ideal.Laws

noncomputable section

namespace Cert.GcnRegions

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a rank-2 whole-buffer access. -/
theorem r5_zero2 : (![0, 0] : Fin 2 → Nat) = fun _ => 0 := funext fun a => by fin_cases a <;> rfl
/-- The zero offset of a rank-1 whole-buffer access. -/
theorem r5_zero1 : (![0] : Fin 1 → Nat) = fun _ => 0 := funext fun a => by fin_cases a <;> rfl

/-- The body's payload read at row r, column j: the row entry plus the bias entry of the column.
    (The bias is cast [64] → [1, 64] and its one row broadcast over the 5000 rows.) -/
theorem pay5_apply (b : Vec Ideal S64 .f32) (x : Vec Ideal S5000x64 .f32) (r : Fin 5000) (j : Fin 64) :
    k5_pay1 b x (ix2 r j) = x (ix2 r j) + b (ix1 j) := by
  unfold k5_pay1
  rw [addf_apply, shapeCast_self, broadcastTo_1b_ab_apply, shapeCast_self, shapeCast_a_1a_apply]

/-- The index maps over the grid: at point t the row-tiled windows sit at row block t and column block 0, the bias
    window at block 0. -/
theorem idx_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

/-- The grid has 20 points. -/
theorem lt20_5 (t : Fin cfg5.N) : t.val < 20 := by
  have h := t.isLt
  have hN : cfg5.N = 20 := N_5
  omega

/-- Row r, column j of point t's input block is row 5000 t + r, column j of the row-tiled array. -/
theorem iblk5_0_apply (c : Dev nD) (t : Fin cfg5.N) (r : Fin 5000) (j : Fin 64) :
    (iblk5 V c 0 t : Vec Ideal S5000x64 .f32) (ix2 r j)
      = (V c main_v73 : S100000x64.Idx → EReal) (ix2 ⟨t.val * 5000 + r.val, by have := lt20_5 t; omega⟩ j) := by
  obtain ⟨e0, e1, -, -, -⟩ := idx_facts5 t
  unfold iblk5
  rw [View.read_apply]
  show V c main_v73 _ = V c main_v73 _
  congr 1
  funext a
  apply Fin.ext
  match a with
  | ⟨0, _⟩ => show win5_0.index t 0 * 5000 + 1 * r.val = t.val * 5000 + r.val; rw [e0]; omega
  | ⟨1, _⟩ => show win5_0.index t 1 * 64 + 1 * j.val = j.val; rw [e1]; omega

/-- Entry j of the bias block is entry j of the bias vector, at every point. -/
theorem iblk5_1_apply (c : Dev nD) (t : Fin cfg5.N) (j : Fin 64) :
    (iblk5 V c 1 t : Vec Ideal S64 .f32) (ix1 j) = (V c main_arg7 : S64.Idx → EReal) (ix1 j) := by
  obtain ⟨-, -, e2, -, -⟩ := idx_facts5 t
  unfold iblk5
  rw [View.read_apply]
  show V c main_arg7 _ = V c main_arg7 _
  congr 1
  funext a
  apply Fin.ext
  match a with
  | ⟨0, _⟩ => show win5_1.index t 0 * 64 + 1 * j.val = j.val; rw [e2]; omega

/-- Row r, column j of point t's output block sits at row 5000 t + r, column j of the output array. -/
theorem emb5_2 (t : Fin cfg5.N) (r : Fin 5000) (j : Fin 64) :
    (((cfg5.win 2).blk t).view.emb (ix2 r j) : S100000x64.Idx)
      = ix2 ⟨t.val * 5000 + r.val, by have := lt20_5 t; omega⟩ j := by
  obtain ⟨-, -, -, e3, e4⟩ := idx_facts5 t
  funext a
  apply Fin.ext
  match a with
  | ⟨0, _⟩ => show win5_2.index t 0 * 5000 + 1 * r.val = t.val * 5000 + r.val; rw [e3]; omega
  | ⟨1, _⟩ => show win5_2.index t 1 * 64 + 1 * j.val = j.val; rw [e4]; omega

/-- What point t writes back is block t of the specification's array of the two inputs as the region finds them. -/
theorem flushed5_eq (c : Dev nD) (t : Fin cfg5.N) :
    (dat5 V c).flushed 2 t
      = ((cfg5.win 2).blk t).view.read (Elt Ideal) (Cert.GcnSpec.bias64 (V c main_v73) (V c main_arg7)) := by
  show (cfg5.win 2).cut (grid5.coords t) ((dat5 V c).after 2 t) = _
  rw [after5_2]
  unfold out5_2
  rw [View.canon_unit_zero r5_zero2]
  simp only [View.ld_unit_zero (S := S5000x64) r5_zero2, View.ld_unit_zero (S := S64) r5_zero1]
  have key : ∀ y : S5000x64.Idx, k5_pay1 (iblk5 V c 1 t) (iblk5 V c 0 t) y
      = Cert.GcnSpec.bias64 (V c main_v73) (V c main_arg7) (((cfg5.win 2).blk t).view.emb y) := by
    intro y
    obtain ⟨r, j, rfl⟩ : ∃ (r : Fin 5000) (j : Fin 64), y = ix2 r j := ⟨y 0, y 1, eq_ix2 y⟩
    rw [pay5_apply, iblk5_0_apply, iblk5_1_apply, emb5_2 t r j, Cert.GcnSpec.bias64_apply]
  funext y
  exact key y

/-- An index of the output array is in point t's block iff each coordinate is in the block's range on its axis. -/
theorem mem_blk5 (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v74).slice (win5_2.rect t)).set ↔ _
  rw [View.set_slice_whole, Rect.mem_set_unit]
  exact Iff.rfl

/-- The 20 blocks of 5000 rows tile the 100000 rows: row r is in the block of point r / 5000. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 20 := N_5
  obtain ⟨t, ht⟩ : ∃ t : Fin cfg5.N, t.val = (i 0).val / 5000 := ⟨⟨(i 0).val / 5000, by omega⟩, rfl⟩
  obtain ⟨-, -, -, e3, e4⟩ := idx_facts5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e3]; omega
  | ⟨1, _⟩ =>
    show win5_2.index t (1 : Fin 2) * 64 ≤ (i 1).val ∧ (i 1).val < win5_2.index t (1 : Fin 2) * 64 + 64
    rw [e4]; omega

/-- THE OUTPUT ARRAY after region 5: bias added, entry by entry, of the region's two inputs. -/
theorem region5_value (c : Dev nD) :
    (dat5 (F := Ideal) V c).arrAt 2 cfg5.N = Cert.GcnSpec.bias64 (V c main_v73) (V c main_arg7) :=
  (dat5 V c).arrAt_eq_of_cover 2 (Cert.GcnSpec.bias64 (V c main_v73) (V c main_arg7))
    (fun t _ => flushed5_eq V c t) cover5

end Cert.GcnRegions

end
-- ==== Proof.SpecDense.lean ====
/-
  The dense transform as the reference spells it — one contraction of the node features' feature axis against the
  weight's row axis, no batch axes — is, on the extended reals, the sum the specification writes: entry (r, j) of x · w
  is the sum over the 128 input features k of x[r, k] · w[k, j]. The contraction's index is its one coordinate, the left
  operand is read at (r, k) and the right at (k, j).
-/
import proofs.«139202_j54924041781475_1_alg».proof.Proof.Glue
import proofs.«139202_j54924041781475_1_alg».proof.Proof.GcnSpec
import Idealize.ShloMosaic.Lib.ValueIdx
import Idealize.ShloMosaic.PureOps.Ideal.Laws

noncomputable section

namespace Cert.Gcn

open Cert.ReferenceIdeal Cert.ReferenceIdeal.Gen Idealize.ShloMosaic Idealize.ShloMosaic.TcCoe
open Idealize.ShloMosaic.ValueIdx

/-! ## 128 → 128 -/

/-- The left operand's index at output (r, j) and contraction k: row r … -/
theorem dense128_lhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- … column k; -/
theorem dense128_lhs_col (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
/-- the right operand's: row k … -/
theorem dense128_rhs_row (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
/-- … column j. -/
theorem dense128_rhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The contraction, read at every index, is the specification's sum: entry (r, j) is ∑ₖ x[r, k] · w[k, j]. -/
theorem dense128_eq (x : (⟨S100000x128, .f32⟩ : BufTy).Contents (Elt Ideal)) (w : (⟨S128x128, .f32⟩ : BufTy).Contents (Elt Ideal)) :
    Cert.Gcn.dense128 (F := Ideal) x w = Cert.GcnSpec.mm128 x w := by
  funext i
  obtain ⟨r, j, rfl⟩ : ∃ (r : Fin 100000) (j : Fin 128), i = ix2 r j := ⟨i 0, i 1, eq_ix2 i⟩
  rw [Cert.GcnSpec.mm128_apply]
  unfold dense128
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact dense128_lhs_row _ _
    | ⟨1, _⟩ => exact (dense128_lhs_col _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (dense128_rhs_row _ _).trans hk
    | ⟨1, _⟩ => exact dense128_rhs_col _ _)
  rw [el, er]

/-! ## 128 → 64 -/

/-- The left operand's index at output (r, j) and contraction k: row r … -/
theorem dense64_lhs_row (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
/-- … column k; -/
theorem dense64_lhs_col (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
/-- the right operand's: row k … -/
theorem dense64_rhs_row (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
/-- … column j. -/
theorem dense64_rhs_col (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The contraction, read at every index, is the specification's sum: entry (r, j) is ∑ₖ x[r, k] · w[k, j]. -/
theorem dense64_eq (x : (⟨S100000x128, .f32⟩ : BufTy).Contents (Elt Ideal)) (w : (⟨S128x64, .f32⟩ : BufTy).Contents (Elt Ideal)) :
    Cert.Gcn.dense64 (F := Ideal) x w = Cert.GcnSpec.mm64 x w := by
  funext i
  obtain ⟨r, j, rfl⟩ : ∃ (r : Fin 100000) (j : Fin 64), i = ix2 r j := ⟨i 0, i 1, eq_ix2 i⟩
  rw [Cert.GcnSpec.mm64_apply]
  unfold dense64
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 r j) ((contrEquiv1 dot_S100000x128_S128x64_S100000x64_1_0_0_1_n_n 128 rfl rfl).symm k) = ix2 r k := funext fun a => Fin.ext (by
    match a with
    | ⟨0, _⟩ => exact dense64_lhs_row _ _
    | ⟨1, _⟩ => exact (dense64_lhs_col _ _).trans hk)
  have er : dot_S100000x128_S128x64_S100000x64_1_0_0_1_n_n.rhsIdx (ix2 r j) ((contrEquiv1 dot_S100000x128_S128x64_S100000x64_1_0_0_1_n_n 128 rfl rfl).symm k) = ix2 k j := funext fun a => Fin.ext (by
    match a with
    | ⟨0, _⟩ => exact (dense64_rhs_row _ _).trans hk
    | ⟨1, _⟩ => exact dense64_rhs_col _ _)
  rw [el, er]

end Cert.Gcn

end
-- ==== Proof.SpecBias.lean ====
/-
  The reference's spelling of the two bias stages is the specification's, as functions of extended reals.

  The reference adds the bias by broadcasting the vector [n] to one row [1, n] and that row over the 100000 rows,
  and clamps by taking the maximum with the scalar 0 broadcast to the whole array. Read at an index (r, j), the
  broadcast bias is b[j] and the broadcast zero is 0, so each stage is, entry by entry, s[r, j] + b[j] (clamped
  below at 0 where there is an activation).
-/
import proofs.«139202_j54924041781475_1_alg».proof.Proof.Glue
import proofs.«139202_j54924041781475_1_alg».proof.Proof.GcnSpec
import Idealize.ShloMosaic.Lib.Pipeline.Value
import Idealize.ShloMosaic.Lib.ValueIdx
import Idealize.ShloMosaic.PureOps.Ideal.Laws

noncomputable section

namespace Cert.Gcn

open Cert.ReferenceIdeal Cert.ReferenceIdeal.Gen Idealize.ShloMosaic Idealize.ShloMosaic.TcCoe
open Idealize.ShloMosaic.ValueIdx

/-- The bias vector, made one row and that row repeated over the 100000 rows, reads b[j] at (r, j): width 128. -/
theorem biasRows128_apply (b : (⟨S128, .f32⟩ : BufTy).Contents (Elt Ideal)) (r : Fin 100000) (j : Fin 128) :
    broadcastInDim S100000x128 ![0, 1] bcast_S1x128_S100000x128_0_1 (broadcastInDim S1x128 ![1] bcast_S128_S1x128_1 b) (ix2 r j)
      = b (ix1 j) :=
  (broadcastInDim_apply _ bcast_S1x128_S100000x128_0_1 _ (ix2 r j) (ix2 (0 : Fin 1) j) (fun a => match a with
    | ⟨0, _⟩ => by show 0 = if (1 : Nat) = 1 then 0 else r.val; rw [if_pos rfl]
    | ⟨1, _⟩ => by show j.val = if (128 : Nat) = 1 then 0 else j.val; rw [if_neg (by decide)])).trans
  (broadcastInDim_apply _ bcast_S128_S1x128_1 b (ix2 (0 : Fin 1) j) (ix1 j) (fun a => match a with
    | ⟨0, _⟩ => by show j.val = if (128 : Nat) = 1 then 0 else j.val; rw [if_neg (by decide)]))

/-- The same at width 64. -/
theorem biasRows64_apply (b : (⟨S64, .f32⟩ : BufTy).Contents (Elt Ideal)) (r : Fin 100000) (j : Fin 64) :
    broadcastInDim S100000x64 ![0, 1] bcast_S1x64_S100000x64_0_1 (broadcastInDim S1x64 ![1] bcast_S64_S1x64_1 b) (ix2 r j)
      = b (ix1 j) :=
  (broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])).trans
  (broadcastInDim_apply _ bcast_S64_S1x64_1 b (ix2 (0 : Fin 1) j) (ix1 j) (fun a => match a with
    | ⟨0, _⟩ => by show j.val = if (64 : Nat) = 1 then 0 else j.val; rw [if_neg (by decide)]))

/-- The scalar zero spread over the whole array reads the real 0 everywhere. -/
theorem zeros128_apply (i : S100000x128.Idx) :
    broadcastInDim S100000x128 ![] bcast_S_S100000x128 (constant (F := Ideal) S_ .f32 0x00000000#32) i = (0 : EReal) :=
  (broadcastInDim_apply _ bcast_S_S100000x128 (constant (F := Ideal) S_ .f32 0x00000000#32) i (fun a => a.elim0)
    (fun a => a.elim0)).trans ((constant_apply (s := S_) (φ := .f32) 0x00000000#32 _).trans Ideal.ofBits_zero_f32)

/-- The reference's bias-and-clamp stage is the specification's: entry by entry, max (a[r, j] + b[j]) 0. -/
theorem biasRelu_eq (a : (⟨S100000x128, .f32⟩ : BufTy).Contents (Elt Ideal)) (b : (⟨S128, .f32⟩ : BufTy).Contents (Elt Ideal)) :
    Cert.Gcn.biasRelu (F := Ideal) a b = Cert.GcnSpec.biasRelu128 a b := by
  funext i
  obtain ⟨r, j, rfl⟩ : ∃ (r : Fin 100000) (j : Fin 128), i = ix2 r j := ⟨i 0, i 1, eq_ix2 i⟩
  rw [Cert.GcnSpec.biasRelu128_apply]
  unfold biasRelu
  rw [maximumf_apply, addf_apply, biasRows128_apply, zeros128_apply]

/-- The reference's last bias stage is the specification's: entry by entry, a[r, j] + b[j]. -/
theorem biasOnly_eq (a : (⟨S100000x64, .f32⟩ : BufTy).Contents (Elt Ideal)) (b : (⟨S64, .f32⟩ : BufTy).Contents (Elt Ideal)) :
    Cert.Gcn.biasOnly (F := Ideal) a b = Cert.GcnSpec.bias64 a b := by
  funext i
  obtain ⟨r, j, rfl⟩ : ∃ (r : Fin 100000) (j : Fin 64), i = ix2 r j := ⟨i 0, i 1, eq_ix2 i⟩
  rw [Cert.GcnSpec.bias64_apply]
  unfold biasOnly
  rw [addf_apply, biasRows64_apply]

end Cert.Gcn

end
-- ==== Proof.lean ====
/-
  A three-layer graph convolution network over 100000 nodes and 1.6 million edges (plus one self-loop per node), as a
  program of six kernel regions — per layer a dense transform x · w in row blocks of 5000, and a bias stage (with a
  clamp at zero in the first two layers) in the same row blocks — with the degree normalisation and each layer's
  gather / scale / scatter-add on the host between them, against the same network written with whole-array operations.

  On the extended reals the two programs are the SAME composition, stage for stage: the reference's dense transform is
  entry by entry the sum over the 128 input features that a row block's matrix product into a zero accumulator
  computes (the change to a 16-bit format before the product is the identity on the reals), its bias stage is entry by
  entry the kernel's, and the graph operations between them are literally the same operations applied to those values.
  No algebraic law beyond reindexing a finite sum is used, so finiteness of the inputs is never needed; the
  precondition is not opened.

  The pieces: GcnSpec (the two dense stages index by index), Glue (the network as whole-array functions in the
  reference's spelling), RefRun / RefValue (the reference's run ends at that network of its arguments), KRun (the
  kernel program's run ends at the contents after its last region), Region0 … Region5 (what each region leaves in its
  output array), SpecDense / SpecBias (the reference's spellings read index by index), KHost (the host stretches as
  Glue's functions), KValue (the walk back through the region boundaries). The idealization's ledger is empty, so
  `preserves` asks nothing.
-/
import proofs.«139202_j54924041781475_1_alg».proof.Defs
import proofs.«139202_j54924041781475_1_alg».proof.Proof.Gen.Kernel
import proofs.«139202_j54924041781475_1_alg».proof.Proof.Gen.Kernel.Frame
import proofs.«139202_j54924041781475_1_alg».proof.Proof.Gen.KernelIdeal
import proofs.«139202_j54924041781475_1_alg».proof.Proof.Gen.KernelIdeal.Frame
import proofs.«139202_j54924041781475_1_alg».proof.Proof.Gen.ReferenceIdeal
import proofs.«139202_j54924041781475_1_alg».proof.Proof.Gen.Pre_finite_inputs
import proofs.«139202_j54924041781475_1_alg».proof.Proof.RefValue
import proofs.«139202_j54924041781475_1_alg».proof.Proof.KRun
import proofs.«139202_j54924041781475_1_alg».proof.Proof.KValue
import proofs.«139202_j54924041781475_1_alg».proof.Proof.Region0
import proofs.«139202_j54924041781475_1_alg».proof.Proof.Region1
import proofs.«139202_j54924041781475_1_alg».proof.Proof.Region2
import proofs.«139202_j54924041781475_1_alg».proof.Proof.Region3
import proofs.«139202_j54924041781475_1_alg».proof.Proof.Region4
import proofs.«139202_j54924041781475_1_alg».proof.Proof.Region5
import proofs.«139202_j54924041781475_1_alg».proof.Proof.SpecDense
import proofs.«139202_j54924041781475_1_alg».proof.Proof.SpecBias
import Idealize.ShloMosaic.Adequacy
import Idealize.ShloMosaic.Init

set_option maxRecDepth 16384

noncomputable section

namespace Cert.Proof

open Idealize.ShloMosaic Idealize.ShloMosaic.TcCoe Idealize.SL.Sem

namespace GcnClaims

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

section
open Cert.KernelIdeal Cert.KernelIdeal.Gen

/-- The kernel program's result: each region's output array (read off the region's proof data at its entry
    contents) handed to the walk through the boundaries. -/
theorem kernel_result (m : (ℓ : Loc nD τ sig) → Buf (Elt Ideal) ℓ) (ρ : Dev nD → PrngReg) (c : Dev nD) :
    W12 m ρ c (Proc.devRef .tc main_v74)
      = Cert.Gcn.gcn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.KernelIdeal.GcnValue.result_eq m ρ c
    ((W4_arr m ρ c 2).trans (Cert.GcnRegions.region0_value (V3 m ρ) c))
    ((W6_arr m ρ c 2).trans (Cert.GcnRegions.region1_value (V5 m ρ) c))
    ((W7_arr m ρ c 2).trans (Cert.GcnRegions.region2_value (V6 m ρ) c))
    ((W9_arr m ρ c 2).trans (Cert.GcnRegions.region3_value (V8 m ρ) c))
    ((W10_arr m ρ c 2).trans (Cert.GcnRegions.region4_value (V9 m ρ) c))
    ((W12_arr m ρ c 2).trans (Cert.GcnRegions.region5_value (V11 m ρ) c))
    Cert.Gcn.dense128_eq Cert.Gcn.dense64_eq Cert.Gcn.biasRelu_eq Cert.Gcn.biasOnly_eq

end

/-- Both programs end, from memories agreeing on the arguments, at the network of those arguments. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (kernel_result m ρ c), (h c).2⟩)
      (Cert.KernelIdeal.GcnRun.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.ref_value, (hagree c).1, (hagree c).2.1, (hagree c).2.2.1, (hagree c).2.2.2.1, (hagree c).2.2.2.2.1,
      (hagree c).2.2.2.2.2.1, (hagree c).2.2.2.2.2.2.1, (hagree c).2.2.2.2.2.2.2]

end GcnClaims

theorem claim : Cert.Claim := ⟨Cert.Kernel.Gen.facts, Cert.KernelIdeal.Gen.facts, Cert.ReferenceIdeal.Gen.facts, Cert.Pre_finite_inputs.Gen.facts,
  GcnClaims.frame_k, GcnClaims.frame_ki, GcnClaims.frame_ri, GcnClaims.preserves, GcnClaims.algebraic⟩

end Cert.Proof

end
